-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S2x131072x128 : Shape := ⟨3, ![2, 131072, 128]⟩
abbrev S2x16x128 : Shape := ⟨3, ![2, 16, 128]⟩
abbrev S1x4096x128 : Shape := ⟨3, ![1, 4096, 128]⟩
abbrev S1x16x128 : Shape := ⟨3, ![1, 16, 128]⟩
abbrev S16x128 : Shape := ⟨2, ![16, 128]⟩
abbrev S4096x128 : Shape := ⟨2, ![4096, 128]⟩
abbrev S1x128 : Shape := ⟨2, ![1, 128]⟩
abbrev S128 : Shape := ⟨1, ![128]⟩
abbrev S_ : Shape := ⟨0, ![]⟩
abbrev S16 : Shape := ⟨1, ![16]⟩
abbrev S15 : Shape := ⟨1, ![15]⟩

abbrev nBuf : Space → Nat
  | .hbm => 36
  | .vmem => 13
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S2x131072x128, .f32⟩
  | .hbm, ⟨3, _⟩ => ⟨S2x131072x128, .i32⟩
  | .hbm, ⟨4, _⟩ => ⟨S2x16x128, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S16, .f32⟩
  | .hbm, ⟨9, _⟩ => ⟨S15, .f32⟩
  | .hbm, ⟨10, _⟩ => ⟨S_, .f32⟩
  | .hbm, ⟨11, _⟩ => ⟨S16, .f32⟩
  | .hbm, ⟨12, _⟩ => ⟨S15, .f32⟩
  | .hbm, ⟨13, _⟩ => ⟨S_, .f32⟩
  | .hbm, ⟨14, _⟩ => ⟨S16, .f32⟩
  | .hbm, ⟨15, _⟩ => ⟨S15, .f32⟩
  | .hbm, ⟨16, _⟩ => ⟨S_, .f32⟩
  | .hbm, ⟨17, _⟩ => ⟨S15, .f32⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S_, .f32⟩
  | .hbm, ⟨22, _⟩ => ⟨S15, .f32⟩
  | .hbm, ⟨23, _⟩ => ⟨S15, .f32⟩
  | .hbm, ⟨24, _⟩ => ⟨S_, .f32⟩
  | .hbm, ⟨25, _⟩ => ⟨S15, .f32⟩
  | .hbm, ⟨26, _⟩ => ⟨S15, .i1⟩
  | .hbm, ⟨27, _⟩ => ⟨S15, .f32⟩
  | .hbm, ⟨28, _⟩ => ⟨S15, .f32⟩
  | .hbm, ⟨29, _⟩ => ⟨S15, .f32⟩
  | .hbm, ⟨30, _⟩ => ⟨S_, .f32⟩
  | .hbm, ⟨31, _⟩ => ⟨S_, .f32⟩
  | .hbm, ⟨32, _⟩ => ⟨S15, .f32⟩
  | .hbm, ⟨33, _⟩ => ⟨S15, .f32⟩
  | .hbm, ⟨34, _⟩ => ⟨S_, .f32⟩
  | .hbm, ⟨35, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v424 : BitVec 1 := Scalar.cmpi .eq arg1 c31_i32
  let v425 : BitVec 32 := Scalar.extui v424
  let c0_i32_221 : BitVec 32 := 0#32
  let v426 : BitVec 1 := Scalar.cmpi .ne v425 c0_i32_221
  v426

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S33554432_S2x131072x128 : S33554432.ShapeCasts S2x131072x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  natLt_1_32 : 1 < 32
  inb_S16x128_S1x128_0_0 : ∀ a, (![0, 0] : Fin 2 → Nat) a + S1x128.size a ≤ S16x128.size a
  h_S1x128 : 0 < S1x128.numel
  reduces_S4096x128_S128 : S4096x128.Reduces [0] S128
  shapeCasts_S128_S1x128 : S128.ShapeCasts S1x128
  shapeCasts_S1x128_S1x128 : S1x128.ShapeCasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S16x128_S1x128_10_0 : ∀ a, (![10, 0] : Fin 2 → Nat) a + S1x128.size a ≤ S16x128.size a
  inb_S16x128_S1x128_11_0 : ∀ a, (![11, 0] : Fin 2 → Nat) a + S1x128.size a ≤ S16x128.size a
  inb_S16x128_S1x128_12_0 : ∀ a, (![12, 0] : Fin 2 → Nat) a + S1x128.size a ≤ S16x128.size a
  inb_S16x128_S1x128_13_0 : ∀ a, (![13, 0] : Fin 2 → Nat) a + S1x128.size a ≤ S16x128.size a
  inb_S16x128_S1x128_14_0 : ∀ a, (![14, 0] : Fin 2 → Nat) a + S1x128.size a ≤ S16x128.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16_d0_2 : S2x16x128.ReducesTo [0, 2] S16
  h_S_ : 0 < S_.numel
  slices_S16_S15_0 : S16.Slices ![0] S15
  bcast_S_S15 : S_.BroadcastsInDim S15 (![] : Fin 0 → Fin S15.rank)
  reducesTo_S15_S_d0 : S15.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x131072x128.size a
  hwx0_0 : ∀ i : grid0.Coords, EltTy.bits .f32 = 32 ∨ (Rect.block (s := S2x131072x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x131072x128.size a
  hwx0_1 : ∀ i : grid0.Coords, EltTy.bits .i32 = 32 ∨ (Rect.block (s := S2x131072x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128.size a ≤ S2x16x128.size a
  hwx0_4 : ∀ i : grid0.Coords, EltTy.bits .f32 = 32 ∨ (Rect.block (s := S2x16x128) S1x16x128.size (cc0_transform_4 i) (hinb0_4 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S15 : Shape := ⟨1, ![15]⟩
abbrev S33554432x1 : Shape := ⟨2, ![33554432, 1]⟩

abbrev nBuf : Space → Nat
  | .hbm => 61
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S33554432, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S33554432, .i32⟩
  | .hbm, ⟨23, _⟩ => ⟨S33554432, .i32⟩
  | .hbm, ⟨24, _⟩ => ⟨S_, .i32⟩
  | .hbm, ⟨25, _⟩ => ⟨S33554432, .i32⟩
  | .hbm, ⟨26, _⟩ => ⟨S33554432, .i32⟩
  | .hbm, ⟨27, _⟩ => ⟨S_, .f32⟩
  | .hbm, ⟨28, _⟩ => ⟨S15, .f32⟩
  | .hbm, ⟨29, _⟩ => ⟨S33554432x1, .i32⟩
  | .hbm, ⟨30, _⟩ => ⟨S15, .f32⟩
  | .hbm, ⟨31, _⟩ => ⟨S_, .f32⟩
  | .hbm, ⟨32, _⟩ => ⟨S15, .f32⟩
  | .hbm, ⟨33, _⟩ => ⟨S33554432x1, .i32⟩
  | .hbm, ⟨34, _⟩ => ⟨S15, .f32⟩
  | .hbm, ⟨35, _⟩ => ⟨S_, .f32⟩
  | .hbm, ⟨36, _⟩ => ⟨S33554432, .f32⟩
  | .hbm, ⟨37, _⟩ => ⟨S_, .f32⟩
  | .hbm, ⟨38, _⟩ => ⟨S15, .f32⟩
  | .hbm, ⟨39, _⟩ => ⟨S33554432x1, .i32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S_, .f32⟩
  | .hbm, ⟨50, _⟩ => ⟨S15, .f32⟩
  | .hbm, ⟨51, _⟩ => ⟨S15, .i1⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S_, .f32⟩
  | .hbm, ⟨56, _⟩ => ⟨S_, .f32⟩
  | .hbm, ⟨57, _⟩ => ⟨S15, .f32⟩
  | .hbm, ⟨58, _⟩ => ⟨S15, .f32⟩
  | .hbm, ⟨59, _⟩ => ⟨S_, .f32⟩
  | .hbm, ⟨60, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S15 : S_.BroadcastsInDim S15 (![] : Fin 0 → Fin S15.rank)
  bcast_S33554432_S33554432x1_0 : S33554432.BroadcastsInDim S33554432x1 (![0] : Fin 1 → Fin S33554432x1.rank)
  reducesTo_S15_S_d0 : S15.ReducesTo [0] S_
  h_S_ : 0 < S_.numel
  scatter_S15_S33554432x1_S33554432_n_0_0_1_wf : ScatterDims.WF S15 S33554432x1 S33554432 [] [0] [0] 1

variable [Facts₀]

def scatter_S15_S33554432x1_S33554432_n_0_0_1 : ScatterDims S15 S33554432x1 S33554432 where
  updateWindowDims := []
  insertedWindowDims := [0]
  scatterDimsToOperandDims := [0]
  indexVectorDim := 1
  wf := scatter_S15_S33554432x1_S33554432_n_0_0_1_wf

class Facts : Prop extends Facts₀ where

variable [Facts]
-- ==== Proof.Spec.lean ====
/-
  The expected-calibration-error computation, stated once over the flat sample arrays.

  A sample with logit `x` has confidence `prob x` (the logistic function) and falls in the bin
  `binOf x`: the ceiling of `15 · prob x`, less one, clamped to `0 … 14`.  For each bin `b` three
  sums over all samples are formed: of the confidences, of the labels, and of ones (the count), each
  restricted to the samples of bin `b` (`binSum`).  The result is
  `∑_b [count_b > 0] · |conf_b / max(count_b, 1) − label_b / max(count_b, 1)| · count_b / 2^25` (`tail`).

  The tiled computation keeps, per core `c`, bin `b` and lane `l`, the partial sum over the rows
  `R` of the `[2, 131072, 128]` arrangement of the samples (`laneSums`); row 15 of that table is zero.
-/
import Idealize.ShloMosaic.PureOps
import Idealize.ShloMosaic.PureOps.Ideal
import Idealize.ShloMosaic.Lib.ValueIdx

noncomputable section

namespace Cert.Ece

open Idealize.ShloMosaic Idealize.ShloMosaic.ValueIdx

/-- The flat sample shape, the `[2, 131072, 128]` arrangement of it, the per-core table of lane sums,
    the bins, and the scalar shape. -/
abbrev SN : Shape := ⟨1, ![33554432]⟩
abbrev S3 : Shape := ⟨3, ![2, 131072, 128]⟩
abbrev SOut : Shape := ⟨3, ![2, 16, 128]⟩
abbrev SB : Shape := ⟨1, ![15]⟩
abbrev S0 : Shape := ⟨0, ![]⟩

/-- The confidence of a logit. -/
def prob (x : EReal) : EReal := Ideal.logistic x

/-- The bin of a logit, as a 32-bit word: `⌈15 · prob x⌉ − 1` clamped to `0 … 14`. -/
def binOf (x : EReal) : BitVec 32 :=
  IntOp.minsi 14#32 (IntOp.maxsi 0#32 (IntOp.subi
    (Ideal.fptosi 32 (Ideal.liftRound Int.ceil (prob x * Ideal.ofBits .f32 0x41700000#32))) 1#32))

/-- A label word as a real. -/
def label (t : BitVec 32) : EReal := FloatOps.sitofp (F := Ideal) .f32 t

/-- The 0/1 weight of bin `b` at a logit: the comparison bit, widened and converted. -/
def inBin (b : BitVec 32) (x : EReal) : EReal :=
  FloatOps.sitofp (F := Ideal) .f32 ((IntOp.cmpi .eq (binOf x) b).setWidth 32)

/-- Per bin, the sum of `val` over the samples whose logit falls in the bin. -/
def binSum (val : SN.Idx → EReal) (lg : SN.Idx → EReal) : SB.Idx → EReal :=
  fun i => ∑ k : SN.Idx, if binOf (lg k) = BitVec.ofNat 32 (i 0).val then val k else 0

/-- Per core, bin and lane, the sum of `val` over the rows of that core and lane whose logit falls in the bin;
    the sixteenth row of the table is zero. -/
def laneSums (val : S3.Idx → EReal) (X : S3.Idx → EReal) : SOut.Idx → EReal :=
  fun y => if (y 1).val < 15 then
      ∑ R : Fin 131072, (if binOf (X (ix3 (y 0) R (y 2))) = BitVec.ofNat 32 (y 1).val then val (ix3 (y 0) R (y 2)) else 0)
    else 0

variable {F : FTy → Type} [FloatOps F]

/-- From the three per-bin sums to the calibration error. -/
def tail (hb : S0.BroadcastsInDim SB (![] : Fin 0 → Fin SB.rank)) (hr : SB.ReducesTo [0] S0) (h0 : 0 < S0.numel)
    (sp st sc : FVec F SB .f32) : FVec F S0 .f32 :=
  Host.reduceAdd
    (select (cmpf .ogt sc (broadcastInDim SB ![] hb (constant S0 .f32 0x00000000#32)))
      (mulf
        (Host.absf (subf
          (Host.divf sp (maximumf sc (broadcastInDim SB ![] hb (constant S0 .f32 0x3F800000#32))))
          (Host.divf st (maximumf sc (broadcastInDim SB ![] hb (constant S0 .f32 0x3F800000#32))))))
        (Host.divf sc (broadcastInDim SB ![] hb (constant S0 .f32 0x4C000000#32))))
      (broadcastInDim SB ![] hb (id (constant S0 .f32 0x00000000#32))))
    (constant S0 .f32 0x00000000#32) hr h0

end Cert.Ece

end
-- ==== Proof.RefSide.lean ====
/-
  The reference computation's result is the calibration-error formula of the three per-bin sums.

  The reference forms, for every sample, the confidence (the logistic of its logit) and the bin word
  (the ceiling of fifteen times the confidence, less one, clamped to 0 … 14), and accumulates
  three arrays of fifteen sums by scatter-with-add: of the confidences, of the labels and of ones, each
  update landing on the bin its word names.  A scatter-with-add into zeros along one axis, with no
  window, sums at bin `i` exactly the updates whose index word is `i`: the start index is read as a
  signed integer and an update is kept when it lies in `0 … 14`, and a 32-bit word whose signed value
  is a natural number below fifteen is that number's word.  Hence each scattered array is the
  corresponding `binSum`, and the operations after the scatters are `tail` verbatim.
-/
import proofs.«160154_j2207613190488_2_alg».proof.Proof.RefRunP
import proofs.«160154_j2207613190488_2_alg».proof.Proof.Spec
import Idealize.ShloMosaic.PureOps.Ideal.Laws
import Idealize.ShloMosaic.Lib.IdealHost
import Idealize.ShloMosaic.Lib.Pipeline.Value

noncomputable section

namespace Cert.Ece.Ref

open Idealize.ShloMosaic Idealize.ShloMosaic.ValueIdx Cert.ReferenceIdeal Cert.ReferenceIdeal.Gen

/-! ## Where an update lands -/

/-- The scatter's dimension numbers: one scattered axis, no window axis, the index vector on axis 1. -/
abbrev dS : ScatterDims S15 S33554432x1 S33554432 := scatter_S15_S33554432x1_S33554432_n_0_0_1

/-- The row of the `[N, 1]` index array that sample `j` reads. -/
abbrev row (j : S33554432.Idx) : S33554432x1.Idx := ix2 (n0 := 33554432) (n1 := 1) (j 0) 0

/-- No operand axis is a window axis: the window coordinate is zero. -/
theorem window_zero (j : S33554432.Idx) (a : Fin S15.rank) : dS.window j a = 0 := by
  unfold ScatterDims.window
  have h : ¬ a ∈ dS.sKept := by
    rw [show dS.sKept = [] from by decide]; exact List.not_mem_nil
  rw [dif_neg h]

/-- Sample `j` reads its start index at row `j`, column 0 of the index array. -/
theorem siIdx_eq (j : S33554432.Idx) (c : Fin dS.scatterDimsToOperandDims.length) :
    dS.siIdx j c = row j := by
  funext b
  match b with
  | ⟨0, h0⟩ =>
    unfold ScatterDims.siIdx
    have hne : ¬ ((⟨0, h0⟩ : Fin S33554432x1.rank).val = dS.indexVectorDim) := Nat.zero_ne_one
    rw [dif_neg hne]
    unfold ScatterDims.siCoord
    apply Fin.ext
    show (j _).val = (j 0).val
    exact congrArg (fun t => (j t).val) (Subsingleton.elim _ _)
  | ⟨1, _⟩ =>
    have hs : ∀ x y : Fin 1, x = y := fun x y => Subsingleton.elim x y
    exact hs _ _

/-- The start on the one operand axis is the signed value of the index word of row `j`. -/
theorem start_eq (j : S33554432.Idx) (idx : IVec S33554432x1 32) (a : Fin S15.rank) :
    dS.start j idx a = (idx (row j)).toInt := by
  unfold ScatterDims.start
  have h : a ∈ dS.scatterDimsToOperandDims := by
    obtain rfl : a = 0 := Subsingleton.elim _ _
    decide
  rw [dif_pos h, siIdx_eq]

/-- An update lands on bin `i` exactly when its index word is the word of `i`: the signed value of the word
    must be a natural number below fifteen, and then the word is that number's. -/
theorem resultIdx_iff (j : S33554432.Idx) (idx : IVec S33554432x1 32) (i : S15.Idx) :
    dS.resultIdx? j idx = some i ↔ idx (row j) = BitVec.ofNat 32 (i 0).val := by
  have hs : ∀ a, dS.start j idx a + (dS.window j a : Int) = (idx (row j)).toInt := fun a => by
    rw [start_eq, window_zero]; simp
  generalize idx (row j) = v at hs ⊢
  have hi : (i 0).val < 15 := (i 0).isLt
  have hc := BitVec.toInt_eq_toNat_cond v
  have hv := v.isLt
  constructor
  · intro e
    unfold ScatterDims.resultIdx? at e
    split at e
    · rename_i h
      have e' := Option.some.inj e
      have e0 : (dS.start j idx 0 + (dS.window j 0 : Int)).toNat = (i 0).val := congrArg (fun f => (f 0).val) e'
      have h0 := h 0
      rw [hs] at h0 e0
      apply BitVec.eq_of_toNat_eq
      rw [BitVec.toNat_ofNat, Nat.mod_eq_of_lt (by omega)]
      split_ifs at hc <;> omega
    · exact absurd e (by simp)
  · intro e
    have hvn : v.toNat = (i 0).val := by
      rw [e, BitVec.toNat_ofNat, Nat.mod_eq_of_lt (by omega)]
    have hvi : v.toInt = ((i 0).val : Int) := by
      split_ifs at hc <;> omega
    have h : ∀ a, 0 ≤ dS.start j idx a + (dS.window j a : Int) ∧ dS.start j idx a + (dS.window j a : Int) < S15.size a := by
      intro a
      obtain rfl : a = 0 := Subsingleton.elim _ _
      rw [hs, hvi]
      exact ⟨by omega, by show ((i 0).val : Int) < 15; omega⟩
    unfold ScatterDims.resultIdx?
    rw [dif_pos h]
    congr 1
    funext a
    obtain rfl : a = 0 := Subsingleton.elim _ _
    apply Fin.ext
    show (dS.start j idx 0 + (dS.window j 0 : Int)).toNat = (i 0).val
    rw [hs, hvi]; simp

/-! ## A scatter-with-add into zeros is the per-bin sum -/

/-- The exact scatter-with-add at bin `i`: the operand's element plus the updates whose index word is `i`. -/
theorem hostScatterAdd_apply (x : S15.Idx → EReal) (idx : IVec S33554432x1 32) (upd : S33554432.Idx → EReal) (i : S15.Idx) :
    Ideal.hostScatterAdd dS x idx upd i
      = x i + ∑ k : S33554432.Idx, if idx (row k) = BitVec.ofNat 32 (i 0).val then upd k else 0 := by
  unfold Ideal.hostScatterAdd
  rw [Finset.sum_filter]
  refine congrArg (x i + ·) ?_
  exact Finset.sum_congr rfl fun k _ => if_congr (resultIdx_iff k idx i) rfl rfl

/-- Scattering the updates `upd` into an operand `x` of zeros through an index array `idx` whose row `k` holds the
    word `w k` sums, at bin `i`, the updates whose word is `i`: the operand contributes nothing, and an update is
    counted at `i` exactly when the word of its row is the word of `i`. -/
theorem scatterAdd_of_zero (x : FVec Ideal S15 .f32) (idx : IVec S33554432x1 32) (w : IVec S33554432 32)
    (upd : FVec Ideal S33554432 .f32) (hx : ∀ i, x i = 0) (hidx : ∀ k, idx (row k) = w k) :
    Host.scatterAdd (F := Ideal) dS x idx upd
      = fun i => ∑ k : S33554432.Idx, if w k = BitVec.ofNat 32 (i 0).val then upd k else 0 := by
  funext i
  refine (Ideal.hostScatterAdd_def dS .single x idx upd ▸ rfl : Host.scatterAdd (F := Ideal) dS x idx upd i = Ideal.hostScatterAdd dS x idx upd i).trans ?_
  rw [hostScatterAdd_apply, hx i, zero_add]
  exact Finset.sum_congr rfl fun k _ => by rw [hidx k]

/-- Row `k` of the `[N, 1]` broadcast of the words `w` holds `w k`. -/
theorem bcast_row (w : IVec S33554432 32) (k : S33554432.Idx) :
    broadcastInDim S33554432x1 ![0] bcast_S33554432_S33554432x1_0 w (row k) = w k := by
  refine broadcastInDim_apply _ bcast_S33554432_S33554432x1_0 w (row k) k ?_
  intro a
  obtain rfl : a = 0 := Subsingleton.elim _ _
  show (k 0).val = if (33554432 : Nat) = 1 then 0 else (k 0).val
  rw [if_neg (by decide)]

/-- The scatter as the reference spells it: into the broadcast of the zero word, through the `[N, 1]` broadcast of the
    words. -/
theorem scatterAdd_zero (w : IVec S33554432 32) (upd : FVec Ideal S33554432 .f32) :
    Host.scatterAdd (F := Ideal) dS (broadcastInDim S15 ![] bcast_S_S15 (constant S_ .f32 0x00000000#32))
        (broadcastInDim S33554432x1 ![0] bcast_S33554432_S33554432x1_0 w) upd
      = fun i => ∑ k : S33554432.Idx, if w k = BitVec.ofNat 32 (i 0).val then upd k else 0 :=
  scatterAdd_of_zero _ _ w upd (fun _ => Ideal.ofBits_zero_f32) (bcast_row w)

/-! ## The reference's words and updates, sample by sample -/

/-- The reference's confidence array at sample `k` is the logistic of the logit: the word `0x3F800000` is one. -/
theorem conf_apply (lg : FVec Ideal S33554432 .f32) (k : S33554432.Idx) :
    (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg)))) k = prob (lg k) := by
  show Ideal.div (Ideal.ofBits .f32 0x3F800000#32) (Ideal.ofBits .f32 0x3F800000#32 + Ideal.exp (-(lg k))) = _
  rw [Ideal.ofBits_one_f32]
  rfl

/-- The reference's bin-word array at sample `k` is the bin of the logit. -/
theorem word_apply (lg : FVec Ideal S33554432 .f32) (k : S33554432.Idx) :
    (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg)))) (broadcastInDim S33554432 ![] bcast_S_S33554432 (constant (F := Ideal) S_ .f32 0x41700000#32))))) (broadcastInDim S33554432 ![] bcast_S_S33554432 (constantI S_ 32 1#32))))) k = binOf (lg k) := by
  show IntOp.minsi 14#32 (IntOp.maxsi 0#32 (IntOp.subi (Ideal.fptosi 32 (Ideal.liftRound Int.ceil
      (Ideal.div (Ideal.ofBits .f32 0x3F800000#32) (Ideal.ofBits .f32 0x3F800000#32 + Ideal.exp (-(lg k)))
        * Ideal.ofBits .f32 0x41700000#32))) 1#32)) = _
  rw [Ideal.ofBits_one_f32]
  rfl

/-- The array of ones at sample `k`. -/
theorem ones_apply (k : S33554432.Idx) : (broadcastInDim S33554432 ![] bcast_S_S33554432 (constant (F := Ideal) S_ .f32 0x3F800000#32)) k = 1 :=
  Ideal.ofBits_one_f32

/-! ## The three scattered arrays are the three per-bin sums -/

theorem binSum_eq (val : SN.Idx → EReal) (lg : SN.Idx → EReal) :
    binSum val lg = fun i => ∑ k : SN.Idx, if binOf (lg k) = BitVec.ofNat 32 (i 0).val then val k else 0 := rfl

/-- The per-bin sums of the confidences. -/
theorem scatter_conf (lg : FVec Ideal S33554432 .f32) :
    Host.scatterAdd (F := Ideal) scatter_S15_S33554432x1_S33554432_n_0_0_1 (broadcastInDim S15 ![] bcast_S_S15 (constant (F := Ideal) S_ .f32 0x00000000#32))
        (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg)))) (broadcastInDim S33554432 ![] bcast_S_S33554432 (constant (F := Ideal) S_ .f32 0x41700000#32))))) (broadcastInDim S33554432 ![] bcast_S_S33554432 (constantI S_ 32 1#32))))))
        (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg))))
      = binSum (fun k => prob (lg k)) lg := by
  rw [binSum_eq]
  refine (scatterAdd_zero _ _).trans ?_
  funext i
  exact Finset.sum_congr rfl fun k _ => by rw [word_apply, conf_apply]

/-- The per-bin sums of the labels. -/
theorem scatter_label (lg : FVec Ideal S33554432 .f32) (tg : IVec S33554432 32) :
    Host.scatterAdd (F := Ideal) scatter_S15_S33554432x1_S33554432_n_0_0_1 (broadcastInDim S15 ![] bcast_S_S15 (constant (F := Ideal) S_ .f32 0x00000000#32))
        (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg)))) (broadcastInDim S33554432 ![] bcast_S_S33554432 (constant (F := Ideal) S_ .f32 0x41700000#32))))) (broadcastInDim S33554432 ![] bcast_S_S33554432 (constantI S_ 32 1#32))))))
        (sitofp .f32 tg)
      = binSum (fun k => label (tg k)) lg := by
  rw [binSum_eq]
  refine (scatterAdd_zero _ _).trans ?_
  funext i
  exact Finset.sum_congr rfl fun k _ => by rw [word_apply]; rfl

/-- The per-bin counts. -/
theorem scatter_count (lg : FVec Ideal S33554432 .f32) :
    Host.scatterAdd (F := Ideal) scatter_S15_S33554432x1_S33554432_n_0_0_1 (broadcastInDim S15 ![] bcast_S_S15 (constant (F := Ideal) S_ .f32 0x00000000#32))
        (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant (F := Ideal) S_ .f32 0x3F800000#32)) (addf (broadcastInDim S33554432 ![] bcast_S_S33554432 (constant (F := Ideal) S_ .f32 0x3F800000#32)) (Host.exp (Host.negf lg)))) (broadcastInDim S33554432 ![] bcast_S_S33554432 (constant (F := Ideal) S_ .f32 0x41700000#32))))) (broadcastInDim S33554432 ![] bcast_S_S33554432 (constantI S_ 32 1#32))))))
        (broadcastInDim S33554432 ![] bcast_S_S33554432 (constant (F := Ideal) S_ .f32 0x3F800000#32))
      = binSum (fun _ => 1) lg := by
  rw [binSum_eq]
  refine (scatterAdd_zero _ _).trans ?_
  funext i
  exact Finset.sum_congr rfl fun k _ => by rw [word_apply, ones_apply]

/-! ## The reference's result -/

/-- The reference's composed term, over its two argument arrays. -/
def refTerm (lg : FVec Ideal S33554432 .f32) (tg : IVec S33554432 32) : FVec Ideal S_ .f32 :=
  Host.reduceAdd (F := Ideal) (select (cmpf (F := Ideal) .ogt
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (broadcastInDim S33554432 ![] bcast_S_S33554432 (constant S_ .f32 0x3F800000#32))) (broadcastInDim S15 ![] bcast_S_S15 (constant S_ .f32 0x00000000#32))) (mulf (Host.absf (subf (Host.divf
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (Host.divf (broadcastInDim S33554432 ![] bcast_S_S33554432 (constant S_ .f32 0x3F800000#32)) (addf (broadcastInDim S33554432 ![] bcast_S_S33554432 (constant S_ .f32 0x3F800000#32)) (Host.exp (Host.negf lg))))) (maximumf
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (broadcastInDim S33554432 ![] bcast_S_S33554432 (constant S_ .f32 0x3F800000#32))) (broadcastInDim S15 ![] bcast_S_S15 (constant S_ .f32 0x3F800000#32)))) (Host.divf
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (sitofp .f32 tg)) (maximumf
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (broadcastInDim S33554432 ![] bcast_S_S33554432 (constant S_ .f32 0x3F800000#32))) (broadcastInDim S15 ![] bcast_S_S15 (constant S_ .f32 0x3F800000#32)))))) (Host.divf
      (Host.scatterAdd scatter_S15_S33554432x1_S33554432_n_0_0_1 (broadcastInDim S15 ![] bcast_S_S15 (constant S_ .f32 0x00000000#32)) (broadcastInDim S33554432x1 ![0] bcast_S33554432_S33554432x1_0 (minsi (broadcastInDim S33554432 ![] bcast_S_S33554432 (id (constantI S_ 32 14#32))) (maxsi (broadcastInDim S33554432 ![] bcast_S_S33554432 (id (constantI S_ 32 0#32))) (subi (fptosi 32 (Host.ceil (mulf (Host.divf (broadcastInDim S33554432 ![] bcast_S_S33554432 (constant S_ .f32 0x3F800000#32)) (addf (broadcastInDim S33554432 ![] bcast_S_S33554432 (constant S_ .f32 0x3F800000#32)) (Host.exp (Host.negf lg)))) (broadcastInDim S33554432 ![] bcast_S_S33554432 (constant S_ .f32 0x41700000#32))))) (broadcastInDim S33554432 ![] bcast_S_S33554432 (constantI S_ 32 1#32)))))) (broadcastInDim S33554432 ![] bcast_S_S33554432 (constant S_ .f32 0x3F800000#32))) (broadcastInDim S15 ![] bcast_S_S15 (constant S_ .f32 0x4C000000#32)))) (broadcastInDim S15 ![] bcast_S_S15 (id (constant S_ .f32 0x00000000#32)))) (constant S_ .f32 0x00000000#32) reducesTo_S15_S_d0 h_S_

/-- The composed term is the calibration error of the three per-bin sums: the scatters are the per-bin sums, and
    what follows them is `tail` as written. -/
theorem refTerm_eq (lg : FVec Ideal S33554432 .f32) (tg : IVec S33554432 32) :
    refTerm lg tg
      = Cert.Ece.tail (F := Ideal) bcast_S_S15 reducesTo_S15_S_d0 h_S_
          (binSum (fun k => prob (lg k)) lg) (binSum (fun k => label (tg k)) lg) (binSum (fun _ => 1) lg) := by
  unfold refTerm
  rw [scatter_conf lg, scatter_label lg tg, scatter_count lg]
  rfl

section Result

open Idealize.ShloMosaic.TcCoe Idealize.SL.Sem

variable (m : (ℓ : Loc nD τ sig) → Buf (Elt Ideal) ℓ)

/-- The logits and the labels a device's run starts from. -/
abbrev lg (c : Dev nD) : SN.Idx → EReal := m ((c.tc : Thread nD τ).loc main_arg0)
abbrev tg (c : Dev nD) : SN.Idx → BitVec 32 := m ((c.tc : Thread nD τ).loc main_arg1)

/-- The reference run's result is the calibration error of the three per-bin sums of its two arguments. -/
theorem ref_result (c : Dev nD) :
    (Cert.ReferenceIdeal.ValueP.res_out0 (F := Ideal) m c : S0.Idx → EReal)
      = Cert.Ece.tail (F := Ideal) bcast_S_S15 reducesTo_S15_S_d0 h_S_
          (binSum (fun k => prob (lg m c k)) (lg m c)) (binSum (fun k => label (tg m c k)) (lg m c))
          (binSum (fun _ => 1) (lg m c)) :=
  refTerm_eq (lg m c) (tg m c)

end Result

end Cert.Ece.Ref

end
-- ==== Proof.BodyLib.lean ====
/-
  One grid point's effect on the three 16 × 128 tables of running lane sums.

  A point sees a block of 4096 rows of 128 lanes of logits and labels.  For each of the fifteen bins `b` it adds to
  lane `l` of row `b` of each table the sum, down the block's column `l`, of the terms of bin `b`: the weighted
  confidences, the weighted labels, the 0/1 weights (`step`).  Row 15 is never touched.  The stores are one-row
  rectangles, so the table after the point is read back rectangle by rectangle.
-/
import proofs.«160154_j2207613190488_2_alg».proof.Proof.Gen.KernelIdeal.Frame
import proofs.«160154_j2207613190488_2_alg».proof.Proof.Spec
import Idealize.ShloMosaic.Lib.Pipeline.Value
import Idealize.ShloMosaic.Lib.ValueIdx
import Idealize.ShloMosaic.Lib.Writes
import Idealize.ShloMosaic.PureOps.Ideal.Laws

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen

namespace Cert.Ece.Body

/-- The 0/1 weights of bin `b` over a block of logits. -/
def maskV (b : BitVec 32) (x0 : Vec Ideal S1x4096x128 .f32) : FVec Ideal S4096x128 .f32 :=
  sitofp .f32 (extui 32 (cmpi .eq (k0_pay10 (F := Ideal) x0) (broadcast S4096x128 b)) natLt_1_32)

/-- The weighted confidences and the weighted labels of bin `b` over a block. -/
def wP (b : BitVec 32) (x0 : Vec Ideal S1x4096x128 .f32) : FVec Ideal S4096x128 .f32 :=
  mulf (maskV b x0) (k0_pay8 (F := Ideal) x0)
def wT (b : BitVec 32) (x0 : Vec Ideal S1x4096x128 .f32) (x1 : Vec Ideal S1x4096x128 .i32) : FVec Ideal S4096x128 .f32 :=
  mulf (maskV b x0) (k0_pay9 (F := Ideal) x1)

/-- A row of a table after a block: the row before plus the column sums of the block's terms. -/
def rowUpd (old : Vec Ideal S1x128 .f32) (w : FVec Ideal S4096x128 .f32) : FVec Ideal S1x128 .f32 :=
  shapeCast S1x128 (addf old (shapeCast S1x128
    (multiReduction .add [0] S128 w 0x00000000#32 reduces_S4096x128_S128 (.inl rfl) rfl) shapeCasts_S128_S1x128))
    shapeCasts_S1x128_S1x128

theorem rowUpd_apply (old : Vec Ideal S1x128 .f32) (w : FVec Ideal S4096x128 .f32) (l : Fin 128) :
    rowUpd old w (ix2 (0 : Fin 1) l) = old (ix2 (0 : Fin 1) l) + ∑ r : Fin 4096, w (ix2 r l) := by
  unfold rowUpd
  rw [shapeCast_self]
  show old (ix2 0 l) + shapeCast S1x128 (multiReduction .add [0] S128 w 0x00000000#32 reduces_S4096x128_S128 (.inl rfl) rfl) shapeCasts_S128_S1x128 (ix2 0 l) = _
  congr 1
  refine (shapeCast_apply _ _ (ix2 0 l) (ix1 l) ?_).trans ?_
  · rw [Shape.rowMajor_val_one, Shape.rowMajor_val_two]
    show l.val = 0 * 128 + l.val
    omega
  · refine (Ideal.multiReduction_add_single w 0x00000000#32 reduces_S4096x128_S128 (.inl rfl) rfl (ix1 l)).trans ?_
    refine Finset.sum_congr rfl fun r _ => congrArg w ?_
    funext c; apply Fin.ext
    fin_cases c <;> rfl

/-- Where lane `l` of the one-row rectangle at row `b` sits in the table. -/
theorem emb_row (b : Nat) (hb : b < 16)
    (inb : ∀ a, (![b, 0] : Fin S16x128.rank → Nat) a + (![1, 128] : Fin S16x128.rank → Nat) a ≤ S16x128.size a) (l : Fin 128) :
    (Rect.unit (s := S16x128) ![b, 0] ![1, 128] inb).emb (ix2 (0 : Fin 1) l) = ix2 (⟨b, hb⟩ : Fin 16) l := by
  funext a; apply Fin.ext
  rw [Rect.emb_apply]
  fin_cases a
  · show b + 1 * 0 = b; omega
  · show 0 + 1 * l.val = l.val; omega

/-- An index of a one-row rectangle is lane `l` of its only row. -/
theorem exists_lane (x : S1x128.Idx) : ∃ l : Fin 128, x = ix2 (0 : Fin 1) l := by
  obtain ⟨p, q, rfl⟩ : ∃ (p : Fin 1) (q : Fin 128), x = ix2 p q := ⟨x 0, x 1, eq_ix2 x⟩
  exact ⟨q, by rw [Subsingleton.elim p 0]⟩

/-- A load of row `b` of a table, at lane `l`. -/
theorem ld_row (xs : Vec Ideal S16x128 .f32) (b : Nat) (hb : b < 16)
    (inb : ∀ a, (![b, 0] : Fin S16x128.rank → Nat) a + (![1, 128] : Fin S16x128.rank → Nat) a ≤ S16x128.size a) (l : Fin 128) :
    View.ld xs (Rect.unit (s := S16x128) ![b, 0] ![1, 128] inb) (ix2 (0 : Fin 1) l) = xs (ix2 (⟨b, hb⟩ : Fin 16) l) := by
  show xs ((Rect.unit (s := S16x128) ![b, 0] ![1, 128] inb).emb (ix2 (0 : Fin 1) l)) = _
  rw [emb_row b hb inb l]

/-- Reading back a list of stores over prior contents: if every store's payload is its rectangle's part of one table `G`,
    and the prior contents agree with `G` wherever no store lands, the buffer reads `G`. -/
theorem read_writes_eq_of_pieces {sig : RefSig} {κ : Kind} {sp : Space} {s : Shape} {e : EltTy} {Val : EltTy → Type}
    (v : View sig κ sp s e) (f : v.ty.Contents Val) (G : s.Idx → Val e) (L : List (View.Piece Val s e))
    (hL : ∀ p ∈ L, ∀ x : p.1.shape.Idx, p.2 x = G (p.1.emb x)) (y : s.Idx)
    (hbase : (∀ p ∈ L, y ∉ p.1.set) → v.read Val f y = G y) : v.read Val (v.writes Val f L) y = G y := by
  by_cases h : ∃ p ∈ L, y ∈ p.1.set
  · exact View.read_writes_apply_of_pieces v f G L hL y h
  · have h' : ∀ p ∈ L, y ∉ p.1.set := fun p hp hy => h ⟨p, hp, hy⟩
    rw [View.read_writes_apply_of_forall_not_mem v f y L h']; exact hbase h'

/-- An index is in the one-row rectangle at row `b` exactly when its row is `b`. -/
theorem mem_row_iff (b : Nat)
    (inb : ∀ a, (![b, 0] : Fin S16x128.rank → Nat) a + (![1, 128] : Fin S16x128.rank → Nat) a ≤ S16x128.size a) (y : S16x128.Idx) :
    y ∈ (Rect.unit (s := S16x128) ![b, 0] ![1, 128] inb).set ↔ (y 0).val = b := by
  rw [Rect.mem_set_unit]
  constructor
  · intro h
    have h0 := h 0
    have e1 : (![b, 0] : Fin S16x128.rank → Nat) 0 = b := rfl
    have e2 : (![1, 128] : Fin S16x128.rank → Nat) 0 = 1 := rfl
    rw [e1, e2] at h0
    omega
  · intro h a
    fin_cases a
    · show b ≤ (y 0).val ∧ (y 0).val < b + 1; omega
    · have := (y 1).isLt
      show 0 ≤ (y 1).val ∧ (y 1).val < 0 + 128
      exact ⟨Nat.zero_le _, by simpa using this⟩

/-- A table after the first `k` of a point's row stores: rows below `k` have gained their bin's column sums of the
    block's terms `w b`, the others are as before. -/
def stepUpTo (k : Nat) (w : BitVec 32 → FVec Ideal S4096x128 .f32) (xs : Vec Ideal S16x128 .f32) : Vec Ideal S16x128 .f32 :=
  fun y => if (y 0).val < k then xs y + ∑ r : Fin 4096, w (BitVec.ofNat 32 (y 0).val) (ix2 r (y 1)) else xs y

/-- A table after a point: each of the fifteen bins' rows has gained its column sums, the sixteenth row is kept. -/
def step (w : BitVec 32 → FVec Ideal S4096x128 .f32) (xs : Vec Ideal S16x128 .f32) : Vec Ideal S16x128 .f32 :=
  stepUpTo 15 w xs

theorem step_apply (w : BitVec 32 → FVec Ideal S4096x128 .f32) (xs : Vec Ideal S16x128 .f32) (b : Fin 16) (l : Fin 128) :
    step w xs (ix2 b l) = if b.val < 15 then xs (ix2 b l) + ∑ r : Fin 4096, w (BitVec.ofNat 32 b.val) (ix2 r l) else xs (ix2 b l) := rfl

/-- The store into row `b` is that row of `step`, when its payload is the row update of the row's earlier contents. -/
theorem row_ok (w : BitVec 32 → FVec Ideal S4096x128 .f32) (b : Nat) (hb : b < 15)
    (inb : ∀ a, (![b, 0] : Fin S16x128.rank → Nat) a + (![1, 128] : Fin S16x128.rank → Nat) a ≤ S16x128.size a)
    (xs : Vec Ideal S16x128 .f32) (pay : FVec Ideal S1x128 .f32) (old : Vec Ideal S1x128 .f32)
    (hpay : pay = rowUpd old (w (BitVec.ofNat 32 b)))
    (hold : ∀ l : Fin 128, old (ix2 (0 : Fin 1) l) = xs (ix2 (⟨b, by omega⟩ : Fin 16) l))
    (x : S1x128.Idx) : pay x = step w xs ((Rect.unit (s := S16x128) ![b, 0] ![1, 128] inb).emb x) := by
  subst hpay
  obtain ⟨l, rfl⟩ := exists_lane x
  rw [emb_row b (by omega) inb l, rowUpd_apply, hold l, step_apply, if_pos (show (⟨b, by omega⟩ : Fin 16).val < 15 from hb)]

/-- The zero table. -/
def zeroT : Vec Ideal S16x128 .f32 := fun _ => 0

end Cert.Ece.Body

end
-- ==== Proof.BodyA.lean ====
/-
  The first point of a core's run: the three tables are zeroed and then take the point's row updates.  The stores are
  read back one after another: after the zeroing store and the first `k` row stores a table is `stepUpTo k` of the
  zero table, and the load that precedes the next row's store reads that table's row, which is still zero.
-/
import proofs.«160154_j2207613190488_2_alg».proof.Proof.BodyLib
import Idealize.ShloMosaic.Lib.Pipeline.FrameBody

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen

namespace Cert.Ece.Body

/-- The block of logits as the point's whole-block load reads it. -/
def X0 (arg2 : Memref sig .tc .vmem S1x4096x128 .f32) (harg2 : arg2.IsWhole) (x0 : Vec Ideal S1x4096x128 .f32) : Vec Ideal S1x4096x128 .f32 :=
  View.readAt (Elt Ideal) arg2.view (Rect.unit (s := S1x4096x128) ![0, 0, 0] S1x4096x128.size inb_S1x4096x128_S1x4096x128_0_0_0).toLoadRect (harg2.unread x0)
/-- The block of labels as the point's whole-block load reads it. -/
def X1 (arg3 : Memref sig .tc .vmem S1x4096x128 .i32) (harg3 : arg3.IsWhole) (x1 : Vec Ideal S1x4096x128 .i32) : Vec Ideal S1x4096x128 .i32 :=
  View.readAt (Elt Ideal) arg3.view (Rect.unit (s := S1x4096x128) ![0, 0, 0] S1x4096x128.size inb_S1x4096x128_S1x4096x128_0_0_0).toLoadRect (harg3.unread x1)

theorem X0_eq (arg2 : Memref sig .tc .vmem S1x4096x128 .f32) (harg2 : arg2.IsWhole) (x0 : Vec Ideal S1x4096x128 .f32) : X0 arg2 harg2 x0 = x0 := by
  unfold X0
  rw [View.readAt_eq_ld, harg2.read_unread]
  exact View.ld_unit_zero (S := S1x4096x128) (show (![0, 0, 0] : Fin S1x4096x128.rank → ℕ) = fun _ => 0 from by funext a; fin_cases a <;> rfl) _ x0
theorem X1_eq (arg3 : Memref sig .tc .vmem S1x4096x128 .i32) (harg3 : arg3.IsWhole) (x1 : Vec Ideal S1x4096x128 .i32) : X1 arg3 harg3 x1 = x1 := by
  unfold X1
  rw [View.readAt_eq_ld, harg3.read_unread]
  exact View.ld_unit_zero (S := S1x4096x128) (show (![0, 0, 0] : Fin S1x4096x128.rank → ℕ) = fun _ => 0 from by funext a; fin_cases a <;> rfl) _ x1

/-- A load of row `b` after earlier stores over unknown contents reads the stores' table at that row. -/
theorem readCov_row (v : View sig .tc .vmem S16x128 .f32) (L : List (View.Piece (Elt Ideal) S16x128 .f32)) (b : Nat) (hb : b < 16)
    (inb : ∀ a, (![b, 0] : Fin S16x128.rank → Nat) a + (![1, 128] : Fin S16x128.rank → Nat) a ≤ S16x128.size a) (l : Fin 128) :
    v.readCov L (Rect.unit (s := S16x128) ![b, 0] ![1, 128] inb).toLoadRect (ix2 (0 : Fin 1) l) = View.canon L (ix2 (⟨b, hb⟩ : Fin 16) l) :=
  (congrFun (View.readCov_eq_canon' v L _) _).trans (congrArg _ (emb_row b hb inb l))

/-- One more row store: if the stores so far leave `stepUpTo b` of the zero table, the store of row `b`, whose payload
    is the row update of what the stores so far hold at that row, leaves `stepUpTo (b + 1)`. -/
theorem canon_row_step (b : Nat) (hb : b < 15)
    (inb : ∀ a, (![b, 0] : Fin S16x128.rank → Nat) a + (![1, 128] : Fin S16x128.rank → Nat) a ≤ S16x128.size a)
    (w : BitVec 32 → FVec Ideal S4096x128 .f32) (L : List (View.Piece (Elt Ideal) S16x128 .f32))
    (pay : FVec Ideal S1x128 .f32) (old : Vec Ideal S1x128 .f32)
    (hpay : pay = rowUpd old (w (BitVec.ofNat 32 b)))
    (hL : ∀ y, View.canon L y = stepUpTo b w zeroT y)
    (hold : ∀ l : Fin 128, old (ix2 (0 : Fin 1) l) = View.canon L (ix2 (⟨b, by omega⟩ : Fin 16) l)) :
    ∀ y, View.canon ((⟨Rect.unit (s := S16x128) ![b, 0] ![1, 128] inb, pay⟩ : View.Piece (Elt Ideal) S16x128 .f32) :: L) y
      = stepUpTo (b + 1) w zeroT y := by
  have hb16 : b < 16 := by omega
  intro y
  by_cases h : (y 0).val = b
  · obtain ⟨p, q, rfl⟩ : ∃ (p : Fin 16) (q : Fin 128), y = ix2 p q := ⟨y 0, y 1, eq_ix2 y⟩
    have hp : p = ⟨b, hb16⟩ := Fin.ext h
    rw [hp, ← emb_row b hb16 inb q, View.canon_cons_emb]
    subst hpay
    rw [rowUpd_apply, hold q, hL, emb_row b hb16 inb q]
    unfold stepUpTo
    rw [if_neg (show ¬ ((ix2 (⟨b, hb16⟩ : Fin 16) q : S16x128.Idx) 0).val < b from Nat.lt_irrefl b),
      if_pos (show ((ix2 (⟨b, hb16⟩ : Fin 16) q : S16x128.Idx) 0).val < b + 1 from Nat.lt_succ_self b)]
  · rw [View.canon_cons_of_not_mem _ _ (by rw [mem_row_iff]; exact h), hL]
    unfold stepUpTo
    by_cases h' : (y 0).val < b
    · rw [if_pos h', if_pos (by omega)]
    · rw [if_neg h', if_neg (by omega)]

/-- Table 0: after the zeroing store alone. -/
theorem A0_1 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_1 (F := Ideal)) y = stepUpTo 0 (fun b => wP b (X0 arg2 harg2 x0)) zeroT y := by
  intro y
  unfold kernelRun0_A.sl.HS0_1
  rw [View.canon_unit_zero (show (![0, 0] : Fin S16x128.rank → ℕ) = fun _ => 0 from by funext a; fin_cases a <;> rfl)]
  unfold k0_pay5
  rw [shapeCast_self]
  unfold stepUpTo
  rw [if_neg (Nat.not_lt_zero _)]
  exact Ideal.ofBits_zero_f32

theorem A0_2 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_2 (F := Ideal) c arg2 harg2 arg7 x0) y = stepUpTo 1 (fun b => wP b (X0 arg2 harg2 x0)) zeroT y := by
  unfold kernelRun0_A.sl.HS0_2
  exact canon_row_step 0 (by norm_num) _ (fun b => wP b (X0 arg2 harg2 x0)) _ _ (kernelRun0_A.sl.v25 (F := Ideal) c arg7) rfl (A0_1 c arg2 harg2 arg7 x0)
    (fun l => by unfold kernelRun0_A.sl.v25; exact readCov_row _ _ 0 (by norm_num) _ l)

theorem A0_3 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_3 (F := Ideal) c arg2 harg2 arg7 x0) y = stepUpTo 2 (fun b => wP b (X0 arg2 harg2 x0)) zeroT y := by
  unfold kernelRun0_A.sl.HS0_3
  exact canon_row_step 1 (by norm_num) _ (fun b => wP b (X0 arg2 harg2 x0)) _ _ (kernelRun0_A.sl.v52 (F := Ideal) c arg2 harg2 arg7 x0) rfl (A0_2 c arg2 harg2 arg7 x0)
    (fun l => by unfold kernelRun0_A.sl.v52; exact readCov_row _ _ 1 (by norm_num) _ l)

theorem A0_4 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_4 (F := Ideal) c arg2 harg2 arg7 x0) y = stepUpTo 3 (fun b => wP b (X0 arg2 harg2 x0)) zeroT y := by
  unfold kernelRun0_A.sl.HS0_4
  exact canon_row_step 2 (by norm_num) _ (fun b => wP b (X0 arg2 harg2 x0)) _ _ (kernelRun0_A.sl.v79 (F := Ideal) c arg2 harg2 arg7 x0) rfl (A0_3 c arg2 harg2 arg7 x0)
    (fun l => by unfold kernelRun0_A.sl.v79; exact readCov_row _ _ 2 (by norm_num) _ l)

theorem A0_5 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_5 (F := Ideal) c arg2 harg2 arg7 x0) y = stepUpTo 4 (fun b => wP b (X0 arg2 harg2 x0)) zeroT y := by
  unfold kernelRun0_A.sl.HS0_5
  exact canon_row_step 3 (by norm_num) _ (fun b => wP b (X0 arg2 harg2 x0)) _ _ (kernelRun0_A.sl.v106 (F := Ideal) c arg2 harg2 arg7 x0) rfl (A0_4 c arg2 harg2 arg7 x0)
    (fun l => by unfold kernelRun0_A.sl.v106; exact readCov_row _ _ 3 (by norm_num) _ l)

theorem A0_6 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_6 (F := Ideal) c arg2 harg2 arg7 x0) y = stepUpTo 5 (fun b => wP b (X0 arg2 harg2 x0)) zeroT y := by
  unfold kernelRun0_A.sl.HS0_6
  exact canon_row_step 4 (by norm_num) _ (fun b => wP b (X0 arg2 harg2 x0)) _ _ (kernelRun0_A.sl.v133 (F := Ideal) c arg2 harg2 arg7 x0) rfl (A0_5 c arg2 harg2 arg7 x0)
    (fun l => by unfold kernelRun0_A.sl.v133; exact readCov_row _ _ 4 (by norm_num) _ l)

theorem A0_7 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_7 (F := Ideal) c arg2 harg2 arg7 x0) y = stepUpTo 6 (fun b => wP b (X0 arg2 harg2 x0)) zeroT y := by
  unfold kernelRun0_A.sl.HS0_7
  exact canon_row_step 5 (by norm_num) _ (fun b => wP b (X0 arg2 harg2 x0)) _ _ (kernelRun0_A.sl.v160 (F := Ideal) c arg2 harg2 arg7 x0) rfl (A0_6 c arg2 harg2 arg7 x0)
    (fun l => by unfold kernelRun0_A.sl.v160; exact readCov_row _ _ 5 (by norm_num) _ l)

theorem A0_8 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_8 (F := Ideal) c arg2 harg2 arg7 x0) y = stepUpTo 7 (fun b => wP b (X0 arg2 harg2 x0)) zeroT y := by
  unfold kernelRun0_A.sl.HS0_8
  exact canon_row_step 6 (by norm_num) _ (fun b => wP b (X0 arg2 harg2 x0)) _ _ (kernelRun0_A.sl.v187 (F := Ideal) c arg2 harg2 arg7 x0) rfl (A0_7 c arg2 harg2 arg7 x0)
    (fun l => by unfold kernelRun0_A.sl.v187; exact readCov_row _ _ 6 (by norm_num) _ l)

theorem A0_9 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_9 (F := Ideal) c arg2 harg2 arg7 x0) y = stepUpTo 8 (fun b => wP b (X0 arg2 harg2 x0)) zeroT y := by
  unfold kernelRun0_A.sl.HS0_9
  exact canon_row_step 7 (by norm_num) _ (fun b => wP b (X0 arg2 harg2 x0)) _ _ (kernelRun0_A.sl.v214 (F := Ideal) c arg2 harg2 arg7 x0) rfl (A0_8 c arg2 harg2 arg7 x0)
    (fun l => by unfold kernelRun0_A.sl.v214; exact readCov_row _ _ 7 (by norm_num) _ l)

theorem A0_10 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_10 (F := Ideal) c arg2 harg2 arg7 x0) y = stepUpTo 9 (fun b => wP b (X0 arg2 harg2 x0)) zeroT y := by
  unfold kernelRun0_A.sl.HS0_10
  exact canon_row_step 8 (by norm_num) _ (fun b => wP b (X0 arg2 harg2 x0)) _ _ (kernelRun0_A.sl.v241 (F := Ideal) c arg2 harg2 arg7 x0) rfl (A0_9 c arg2 harg2 arg7 x0)
    (fun l => by unfold kernelRun0_A.sl.v241; exact readCov_row _ _ 8 (by norm_num) _ l)

theorem A0_11 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_11 (F := Ideal) c arg2 harg2 arg7 x0) y = stepUpTo 10 (fun b => wP b (X0 arg2 harg2 x0)) zeroT y := by
  unfold kernelRun0_A.sl.HS0_11
  exact canon_row_step 9 (by norm_num) _ (fun b => wP b (X0 arg2 harg2 x0)) _ _ (kernelRun0_A.sl.v268 (F := Ideal) c arg2 harg2 arg7 x0) rfl (A0_10 c arg2 harg2 arg7 x0)
    (fun l => by unfold kernelRun0_A.sl.v268; exact readCov_row _ _ 9 (by norm_num) _ l)

theorem A0_12 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_12 (F := Ideal) c arg2 harg2 arg7 x0) y = stepUpTo 11 (fun b => wP b (X0 arg2 harg2 x0)) zeroT y := by
  unfold kernelRun0_A.sl.HS0_12
  exact canon_row_step 10 (by norm_num) _ (fun b => wP b (X0 arg2 harg2 x0)) _ _ (kernelRun0_A.sl.v295 (F := Ideal) c arg2 harg2 arg7 x0) rfl (A0_11 c arg2 harg2 arg7 x0)
    (fun l => by unfold kernelRun0_A.sl.v295; exact readCov_row _ _ 10 (by norm_num) _ l)

theorem A0_13 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_13 (F := Ideal) c arg2 harg2 arg7 x0) y = stepUpTo 12 (fun b => wP b (X0 arg2 harg2 x0)) zeroT y := by
  unfold kernelRun0_A.sl.HS0_13
  exact canon_row_step 11 (by norm_num) _ (fun b => wP b (X0 arg2 harg2 x0)) _ _ (kernelRun0_A.sl.v322 (F := Ideal) c arg2 harg2 arg7 x0) rfl (A0_12 c arg2 harg2 arg7 x0)
    (fun l => by unfold kernelRun0_A.sl.v322; exact readCov_row _ _ 11 (by norm_num) _ l)

theorem A0_14 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_14 (F := Ideal) c arg2 harg2 arg7 x0) y = stepUpTo 13 (fun b => wP b (X0 arg2 harg2 x0)) zeroT y := by
  unfold kernelRun0_A.sl.HS0_14
  exact canon_row_step 12 (by norm_num) _ (fun b => wP b (X0 arg2 harg2 x0)) _ _ (kernelRun0_A.sl.v349 (F := Ideal) c arg2 harg2 arg7 x0) rfl (A0_13 c arg2 harg2 arg7 x0)
    (fun l => by unfold kernelRun0_A.sl.v349; exact readCov_row _ _ 12 (by norm_num) _ l)

theorem A0_15 (c : Dev nD) (arg2 : Memref sig .tc .vmem S1x4096x128 .f32) (harg2 : arg2.IsWhole) (arg7 : Memref sig .tc .vmem S16x128 .f32) (x0 : Vec Ideal S1x4096x128 .f32) : ∀ y, View.canon (kernelRun0_A.sl.HS0_15 (F := Ideal) c arg2 harg2 arg7 x0) y = stepUpTo 14 (fun b => wP b (X0 arg2 harg2 x0)) zeroT y := by
  unfold kernelRun0_A.sl.HS0_15
  exact canon_row_step 13 (by norm_num) _ (fun b => wP b (X0 arg2 harg2 x0)) _ _ (kernelRun0_A.sl.v376 (F := Ideal) c arg2 harg2 arg7 x0) rfl (A0_14 c arg2 harg2 arg7 x0)
    (fun l => by unfold kernelRun0_A.sl.v376; exact readCov_row _ _ 13 (by norm_num) _ l)

/-- Table 1: after the zeroing store alone. -/
theorem A1_1 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_1 (F := Ideal)) y = stepUpTo 0 (fun b => wT b (X0 arg2 harg2 x0) (X1 arg3 harg3 x1)) zeroT y := by
  intro y
  unfold kernelRun0_A.sl.HS1_1
  rw [View.canon_unit_zero (show (![0, 0] : Fin S16x128.rank → ℕ) = fun _ => 0 from by funext a; fin_cases a <;> rfl)]
  unfold k0_pay6
  rw [shapeCast_self]
  unfold stepUpTo
  rw [if_neg (Nat.not_lt_zero _)]
  exact Ideal.ofBits_zero_f32

theorem A1_2 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_2 (F := Ideal) c arg2 harg2 arg3 harg3 arg8 x0 x1) y = stepUpTo 1 (fun b => wT b (X0 arg2 harg2 x0) (X1 arg3 harg3 x1)) zeroT y := by
  unfold kernelRun0_A.sl.HS1_2
  exact canon_row_step 0 (by norm_num) _ (fun b => wT b (X0 arg2 harg2 x0) (X1 arg3 harg3 x1)) _ _ (kernelRun0_A.sl.v32 (F := Ideal) c arg8) rfl (A1_1 c arg2 harg2 arg3 harg3 arg8 x0 x1)
    (fun l => by unfold kernelRun0_A.sl.v32; exact readCov_row _ _ 0 (by norm_num) _ l)

theorem A1_3 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_3 (F := Ideal) c arg2 harg2 arg3 harg3 arg8 x0 x1) y = stepUpTo 2 (fun b => wT b (X0 arg2 harg2 x0) (X1 arg3 harg3 x1)) zeroT y := by
  unfold kernelRun0_A.sl.HS1_3
  exact canon_row_step 1 (by norm_num) _ (fun b => wT b (X0 arg2 harg2 x0) (X1 arg3 harg3 x1)) _ _ (kernelRun0_A.sl.v59 (F := Ideal) c arg2 harg2 arg3 harg3 arg8 x0 x1) rfl (A1_2 c arg2 harg2 arg3 harg3 arg8 x0 x1)
    (fun l => by unfold kernelRun0_A.sl.v59; exact readCov_row _ _ 1 (by norm_num) _ l)

theorem A1_4 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_4 (F := Ideal) c arg2 harg2 arg3 harg3 arg8 x0 x1) y = stepUpTo 3 (fun b => wT b (X0 arg2 harg2 x0) (X1 arg3 harg3 x1)) zeroT y := by
  unfold kernelRun0_A.sl.HS1_4
  exact canon_row_step 2 (by norm_num) _ (fun b => wT b (X0 arg2 harg2 x0) (X1 arg3 harg3 x1)) _ _ (kernelRun0_A.sl.v86 (F := Ideal) c arg2 harg2 arg3 harg3 arg8 x0 x1) rfl (A1_3 c arg2 harg2 arg3 harg3 arg8 x0 x1)
    (fun l => by unfold kernelRun0_A.sl.v86; exact readCov_row _ _ 2 (by norm_num) _ l)

theorem A1_5 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_5 (F := Ideal) c arg2 harg2 arg3 harg3 arg8 x0 x1) y = stepUpTo 4 (fun b => wT b (X0 arg2 harg2 x0) (X1 arg3 harg3 x1)) zeroT y := by
  unfold kernelRun0_A.sl.HS1_5
  exact canon_row_step 3 (by norm_num) _ (fun b => wT b (X0 arg2 harg2 x0) (X1 arg3 harg3 x1)) _ _ (kernelRun0_A.sl.v113 (F := Ideal) c arg2 harg2 arg3 harg3 arg8 x0 x1) rfl (A1_4 c arg2 harg2 arg3 harg3 arg8 x0 x1)
    (fun l => by unfold kernelRun0_A.sl.v113; exact readCov_row _ _ 3 (by norm_num) _ l)

theorem A1_6 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_6 (F := Ideal) c arg2 harg2 arg3 harg3 arg8 x0 x1) y = stepUpTo 5 (fun b => wT b (X0 arg2 harg2 x0) (X1 arg3 harg3 x1)) zeroT y := by
  unfold kernelRun0_A.sl.HS1_6
  exact canon_row_step 4 (by norm_num) _ (fun b => wT b (X0 arg2 harg2 x0) (X1 arg3 harg3 x1)) _ _ (kernelRun0_A.sl.v140 (F := Ideal) c arg2 harg2 arg3 harg3 arg8 x0 x1) rfl (A1_5 c arg2 harg2 arg3 harg3 arg8 x0 x1)
    (fun l => by unfold kernelRun0_A.sl.v140; exact readCov_row _ _ 4 (by norm_num) _ l)

theorem A1_7 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_7 (F := Ideal) c arg2 harg2 arg3 harg3 arg8 x0 x1) y = stepUpTo 6 (fun b => wT b (X0 arg2 harg2 x0) (X1 arg3 harg3 x1)) zeroT y := by
  unfold kernelRun0_A.sl.HS1_7
  exact canon_row_step 5 (by norm_num) _ (fun b => wT b (X0 arg2 harg2 x0) (X1 arg3 harg3 x1)) _ _ (kernelRun0_A.sl.v167 (F := Ideal) c arg2 harg2 arg3 harg3 arg8 x0 x1) rfl (A1_6 c arg2 harg2 arg3 harg3 arg8 x0 x1)
    (fun l => by unfold kernelRun0_A.sl.v167; exact readCov_row _ _ 5 (by norm_num) _ l)

theorem A1_8 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_8 (F := Ideal) c arg2 harg2 arg3 harg3 arg8 x0 x1) y = stepUpTo 7 (fun b => wT b (X0 arg2 harg2 x0) (X1 arg3 harg3 x1)) zeroT y := by
  unfold kernelRun0_A.sl.HS1_8
  exact canon_row_step 6 (by norm_num) _ (fun b => wT b (X0 arg2 harg2 x0) (X1 arg3 harg3 x1)) _ _ (kernelRun0_A.sl.v194 (F := Ideal) c arg2 harg2 arg3 harg3 arg8 x0 x1) rfl (A1_7 c arg2 harg2 arg3 harg3 arg8 x0 x1)
    (fun l => by unfold kernelRun0_A.sl.v194; exact readCov_row _ _ 6 (by norm_num) _ l)

theorem A1_9 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_9 (F := Ideal) c arg2 harg2 arg3 harg3 arg8 x0 x1) y = stepUpTo 8 (fun b => wT b (X0 arg2 harg2 x0) (X1 arg3 harg3 x1)) zeroT y := by
  unfold kernelRun0_A.sl.HS1_9
  exact canon_row_step 7 (by norm_num) _ (fun b => wT b (X0 arg2 harg2 x0) (X1 arg3 harg3 x1)) _ _ (kernelRun0_A.sl.v221 (F := Ideal) c arg2 harg2 arg3 harg3 arg8 x0 x1) rfl (A1_8 c arg2 harg2 arg3 harg3 arg8 x0 x1)
    (fun l => by unfold kernelRun0_A.sl.v221; exact readCov_row _ _ 7 (by norm_num) _ l)

theorem A1_10 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_10 (F := Ideal) c arg2 harg2 arg3 harg3 arg8 x0 x1) y = stepUpTo 9 (fun b => wT b (X0 arg2 harg2 x0) (X1 arg3 harg3 x1)) zeroT y := by
  unfold kernelRun0_A.sl.HS1_10
  exact canon_row_step 8 (by norm_num) _ (fun b => wT b (X0 arg2 harg2 x0) (X1 arg3 harg3 x1)) _ _ (kernelRun0_A.sl.v248 (F := Ideal) c arg2 harg2 arg3 harg3 arg8 x0 x1) rfl (A1_9 c arg2 harg2 arg3 harg3 arg8 x0 x1)
    (fun l => by unfold kernelRun0_A.sl.v248; exact readCov_row _ _ 8 (by norm_num) _ l)

theorem A1_11 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_11 (F := Ideal) c arg2 harg2 arg3 harg3 arg8 x0 x1) y = stepUpTo 10 (fun b => wT b (X0 arg2 harg2 x0) (X1 arg3 harg3 x1)) zeroT y := by
  unfold kernelRun0_A.sl.HS1_11
  exact canon_row_step 9 (by norm_num) _ (fun b => wT b (X0 arg2 harg2 x0) (X1 arg3 harg3 x1)) _ _ (kernelRun0_A.sl.v275 (F := Ideal) c arg2 harg2 arg3 harg3 arg8 x0 x1) rfl (A1_10 c arg2 harg2 arg3 harg3 arg8 x0 x1)
    (fun l => by unfold kernelRun0_A.sl.v275; exact readCov_row _ _ 9 (by norm_num) _ l)

theorem A1_12 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_12 (F := Ideal) c arg2 harg2 arg3 harg3 arg8 x0 x1) y = stepUpTo 11 (fun b => wT b (X0 arg2 harg2 x0) (X1 arg3 harg3 x1)) zeroT y := by
  unfold kernelRun0_A.sl.HS1_12
  exact canon_row_step 10 (by norm_num) _ (fun b => wT b (X0 arg2 harg2 x0) (X1 arg3 harg3 x1)) _ _ (kernelRun0_A.sl.v302 (F := Ideal) c arg2 harg2 arg3 harg3 arg8 x0 x1) rfl (A1_11 c arg2 harg2 arg3 harg3 arg8 x0 x1)
    (fun l => by unfold kernelRun0_A.sl.v302; exact readCov_row _ _ 10 (by norm_num) _ l)

theorem A1_13 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_13 (F := Ideal) c arg2 harg2 arg3 harg3 arg8 x0 x1) y = stepUpTo 12 (fun b => wT b (X0 arg2 harg2 x0) (X1 arg3 harg3 x1)) zeroT y := by
  unfold kernelRun0_A.sl.HS1_13
  exact canon_row_step 11 (by norm_num) _ (fun b => wT b (X0 arg2 harg2 x0) (X1 arg3 harg3 x1)) _ _ (kernelRun0_A.sl.v329 (F := Ideal) c arg2 harg2 arg3 harg3 arg8 x0 x1) rfl (A1_12 c arg2 harg2 arg3 harg3 arg8 x0 x1)
    (fun l => by unfold kernelRun0_A.sl.v329; exact readCov_row _ _ 11 (by norm_num) _ l)

theorem A1_14 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_14 (F := Ideal) c arg2 harg2 arg3 harg3 arg8 x0 x1) y = stepUpTo 13 (fun b => wT b (X0 arg2 harg2 x0) (X1 arg3 harg3 x1)) zeroT y := by
  unfold kernelRun0_A.sl.HS1_14
  exact canon_row_step 12 (by norm_num) _ (fun b => wT b (X0 arg2 harg2 x0) (X1 arg3 harg3 x1)) _ _ (kernelRun0_A.sl.v356 (F := Ideal) c arg2 harg2 arg3 harg3 arg8 x0 x1) rfl (A1_13 c arg2 harg2 arg3 harg3 arg8 x0 x1)
    (fun l => by unfold kernelRun0_A.sl.v356; exact readCov_row _ _ 12 (by norm_num) _ l)

theorem A1_15 (c : Dev nD) (arg2 : Memref sig .tc .vmem S1x4096x128 .f32) (harg2 : arg2.IsWhole) (arg3 : Memref sig .tc .vmem S1x4096x128 .i32) (harg3 : arg3.IsWhole) (arg8 : Memref sig .tc .vmem S16x128 .f32) (x0 : Vec Ideal S1x4096x128 .f32) (x1 : Vec Ideal S1x4096x128 .i32) : ∀ y, View.canon (kernelRun0_A.sl.HS1_15 (F := Ideal) c arg2 harg2 arg3 harg3 arg8 x0 x1) y = stepUpTo 14 (fun b => wT b (X0 arg2 harg2 x0) (X1 arg3 harg3 x1)) zeroT y := by
  unfold kernelRun0_A.sl.HS1_15
  exact canon_row_step 13 (by norm_num) _ (fun b => wT b (X0 arg2 harg2 x0) (X1 arg3 harg3 x1)) _ _ (kernelRun0_A.sl.v383 (F := Ideal) c arg2 harg2 arg3 harg3 arg8 x0 x1) rfl (A1_14 c arg2 harg2 arg3 harg3 arg8 x0 x1)
    (fun l => by unfold kernelRun0_A.sl.v383; exact readCov_row _ _ 13 (by norm_num) _ l)

/-- Table 2: after the zeroing store alone. -/
theorem A2_1 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_1 (F := Ideal)) y = stepUpTo 0 (fun b => maskV b (X0 arg2 harg2 x0)) zeroT y := by
  intro y
  unfold kernelRun0_A.sl.HS2_1
  rw [View.canon_unit_zero (show (![0, 0] : Fin S16x128.rank → ℕ) = fun _ => 0 from by funext a; fin_cases a <;> rfl)]
  unfold k0_pay7
  rw [shapeCast_self]
  unfold stepUpTo
  rw [if_neg (Nat.not_lt_zero _)]
  exact Ideal.ofBits_zero_f32

theorem A2_2 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_2 (F := Ideal) c arg2 harg2 arg9 x0) y = stepUpTo 1 (fun b => maskV b (X0 arg2 harg2 x0)) zeroT y := by
  unfold kernelRun0_A.sl.HS2_2
  exact canon_row_step 0 (by norm_num) _ (fun b => maskV b (X0 arg2 harg2 x0)) _ _ (kernelRun0_A.sl.v39 (F := Ideal) c arg9) rfl (A2_1 c arg2 harg2 arg9 x0)
    (fun l => by unfold kernelRun0_A.sl.v39; exact readCov_row _ _ 0 (by norm_num) _ l)

theorem A2_3 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_3 (F := Ideal) c arg2 harg2 arg9 x0) y = stepUpTo 2 (fun b => maskV b (X0 arg2 harg2 x0)) zeroT y := by
  unfold kernelRun0_A.sl.HS2_3
  exact canon_row_step 1 (by norm_num) _ (fun b => maskV b (X0 arg2 harg2 x0)) _ _ (kernelRun0_A.sl.v66 (F := Ideal) c arg2 harg2 arg9 x0) rfl (A2_2 c arg2 harg2 arg9 x0)
    (fun l => by unfold kernelRun0_A.sl.v66; exact readCov_row _ _ 1 (by norm_num) _ l)

theorem A2_4 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_4 (F := Ideal) c arg2 harg2 arg9 x0) y = stepUpTo 3 (fun b => maskV b (X0 arg2 harg2 x0)) zeroT y := by
  unfold kernelRun0_A.sl.HS2_4
  exact canon_row_step 2 (by norm_num) _ (fun b => maskV b (X0 arg2 harg2 x0)) _ _ (kernelRun0_A.sl.v93 (F := Ideal) c arg2 harg2 arg9 x0) rfl (A2_3 c arg2 harg2 arg9 x0)
    (fun l => by unfold kernelRun0_A.sl.v93; exact readCov_row _ _ 2 (by norm_num) _ l)

theorem A2_5 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_5 (F := Ideal) c arg2 harg2 arg9 x0) y = stepUpTo 4 (fun b => maskV b (X0 arg2 harg2 x0)) zeroT y := by
  unfold kernelRun0_A.sl.HS2_5
  exact canon_row_step 3 (by norm_num) _ (fun b => maskV b (X0 arg2 harg2 x0)) _ _ (kernelRun0_A.sl.v120 (F := Ideal) c arg2 harg2 arg9 x0) rfl (A2_4 c arg2 harg2 arg9 x0)
    (fun l => by unfold kernelRun0_A.sl.v120; exact readCov_row _ _ 3 (by norm_num) _ l)

theorem A2_6 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_6 (F := Ideal) c arg2 harg2 arg9 x0) y = stepUpTo 5 (fun b => maskV b (X0 arg2 harg2 x0)) zeroT y := by
  unfold kernelRun0_A.sl.HS2_6
  exact canon_row_step 4 (by norm_num) _ (fun b => maskV b (X0 arg2 harg2 x0)) _ _ (kernelRun0_A.sl.v147 (F := Ideal) c arg2 harg2 arg9 x0) rfl (A2_5 c arg2 harg2 arg9 x0)
    (fun l => by unfold kernelRun0_A.sl.v147; exact readCov_row _ _ 4 (by norm_num) _ l)

theorem A2_7 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_7 (F := Ideal) c arg2 harg2 arg9 x0) y = stepUpTo 6 (fun b => maskV b (X0 arg2 harg2 x0)) zeroT y := by
  unfold kernelRun0_A.sl.HS2_7
  exact canon_row_step 5 (by norm_num) _ (fun b => maskV b (X0 arg2 harg2 x0)) _ _ (kernelRun0_A.sl.v174 (F := Ideal) c arg2 harg2 arg9 x0) rfl (A2_6 c arg2 harg2 arg9 x0)
    (fun l => by unfold kernelRun0_A.sl.v174; exact readCov_row _ _ 5 (by norm_num) _ l)

theorem A2_8 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_8 (F := Ideal) c arg2 harg2 arg9 x0) y = stepUpTo 7 (fun b => maskV b (X0 arg2 harg2 x0)) zeroT y := by
  unfold kernelRun0_A.sl.HS2_8
  exact canon_row_step 6 (by norm_num) _ (fun b => maskV b (X0 arg2 harg2 x0)) _ _ (kernelRun0_A.sl.v201 (F := Ideal) c arg2 harg2 arg9 x0) rfl (A2_7 c arg2 harg2 arg9 x0)
    (fun l => by unfold kernelRun0_A.sl.v201; exact readCov_row _ _ 6 (by norm_num) _ l)

theorem A2_9 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_9 (F := Ideal) c arg2 harg2 arg9 x0) y = stepUpTo 8 (fun b => maskV b (X0 arg2 harg2 x0)) zeroT y := by
  unfold kernelRun0_A.sl.HS2_9
  exact canon_row_step 7 (by norm_num) _ (fun b => maskV b (X0 arg2 harg2 x0)) _ _ (kernelRun0_A.sl.v228 (F := Ideal) c arg2 harg2 arg9 x0) rfl (A2_8 c arg2 harg2 arg9 x0)
    (fun l => by unfold kernelRun0_A.sl.v228; exact readCov_row _ _ 7 (by norm_num) _ l)

theorem A2_10 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_10 (F := Ideal) c arg2 harg2 arg9 x0) y = stepUpTo 9 (fun b => maskV b (X0 arg2 harg2 x0)) zeroT y := by
  unfold kernelRun0_A.sl.HS2_10
  exact canon_row_step 8 (by norm_num) _ (fun b => maskV b (X0 arg2 harg2 x0)) _ _ (kernelRun0_A.sl.v255 (F := Ideal) c arg2 harg2 arg9 x0) rfl (A2_9 c arg2 harg2 arg9 x0)
    (fun l => by unfold kernelRun0_A.sl.v255; exact readCov_row _ _ 8 (by norm_num) _ l)

theorem A2_11 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_11 (F := Ideal) c arg2 harg2 arg9 x0) y = stepUpTo 10 (fun b => maskV b (X0 arg2 harg2 x0)) zeroT y := by
  unfold kernelRun0_A.sl.HS2_11
  exact canon_row_step 9 (by norm_num) _ (fun b => maskV b (X0 arg2 harg2 x0)) _ _ (kernelRun0_A.sl.v282 (F := Ideal) c arg2 harg2 arg9 x0) rfl (A2_10 c arg2 harg2 arg9 x0)
    (fun l => by unfold kernelRun0_A.sl.v282; exact readCov_row _ _ 9 (by norm_num) _ l)

theorem A2_12 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_12 (F := Ideal) c arg2 harg2 arg9 x0) y = stepUpTo 11 (fun b => maskV b (X0 arg2 harg2 x0)) zeroT y := by
  unfold kernelRun0_A.sl.HS2_12
  exact canon_row_step 10 (by norm_num) _ (fun b => maskV b (X0 arg2 harg2 x0)) _ _ (kernelRun0_A.sl.v309 (F := Ideal) c arg2 harg2 arg9 x0) rfl (A2_11 c arg2 harg2 arg9 x0)
    (fun l => by unfold kernelRun0_A.sl.v309; exact readCov_row _ _ 10 (by norm_num) _ l)

theorem A2_13 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_13 (F := Ideal) c arg2 harg2 arg9 x0) y = stepUpTo 12 (fun b => maskV b (X0 arg2 harg2 x0)) zeroT y := by
  unfold kernelRun0_A.sl.HS2_13
  exact canon_row_step 11 (by norm_num) _ (fun b => maskV b (X0 arg2 harg2 x0)) _ _ (kernelRun0_A.sl.v336 (F := Ideal) c arg2 harg2 arg9 x0) rfl (A2_12 c arg2 harg2 arg9 x0)
    (fun l => by unfold kernelRun0_A.sl.v336; exact readCov_row _ _ 11 (by norm_num) _ l)

theorem A2_14 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_14 (F := Ideal) c arg2 harg2 arg9 x0) y = stepUpTo 13 (fun b => maskV b (X0 arg2 harg2 x0)) zeroT y := by
  unfold kernelRun0_A.sl.HS2_14
  exact canon_row_step 12 (by norm_num) _ (fun b => maskV b (X0 arg2 harg2 x0)) _ _ (kernelRun0_A.sl.v363 (F := Ideal) c arg2 harg2 arg9 x0) rfl (A2_13 c arg2 harg2 arg9 x0)
    (fun l => by unfold kernelRun0_A.sl.v363; exact readCov_row _ _ 12 (by norm_num) _ l)

theorem A2_15 (c : Dev nD) (arg2 : Memref sig .tc .vmem S1x4096x128 .f32) (harg2 : arg2.IsWhole) (arg9 : Memref sig .tc .vmem S16x128 .f32) (x0 : Vec Ideal S1x4096x128 .f32) : ∀ y, View.canon (kernelRun0_A.sl.HS2_15 (F := Ideal) c arg2 harg2 arg9 x0) y = stepUpTo 14 (fun b => maskV b (X0 arg2 harg2 x0)) zeroT y := by
  unfold kernelRun0_A.sl.HS2_15
  exact canon_row_step 13 (by norm_num) _ (fun b => maskV b (X0 arg2 harg2 x0)) _ _ (kernelRun0_A.sl.v390 (F := Ideal) c arg2 harg2 arg9 x0) rfl (A2_14 c arg2 harg2 arg9 x0)
    (fun l => by unfold kernelRun0_A.sl.v390; exact readCov_row _ _ 13 (by norm_num) _ l)

/-- Table 0 after the first point of a core's run: the point's row updates of the zero table. -/
theorem sout_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S1x4096x128 .f32) (x1 : Vec Ideal S1x4096x128 .i32) :
    sout0_A_0 (F := Ideal) c i arg2 harg2 arg3 harg3 arg4 harg4 arg5 harg5 arg6 harg6 arg7 harg7 arg8 harg8 arg9 harg9 hc0 hc1 x0 x1 = step (fun b => wP b x0) zeroT := by
  funext y
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  refine Eq.trans (canon_row_step 14 (by norm_num) _ (fun b => wP b (X0 arg2 harg2 x0)) _ _ (kernelRun0_A.sl.v403 (F := Ideal) c arg2 harg2 arg7 x0) rfl
    (A0_15 c arg2 harg2 arg7 x0) (fun l => by unfold kernelRun0_A.sl.v403; exact readCov_row _ _ 14 (by norm_num) _ l) y) ?_
  rw [X0_eq]
  rfl

/-- Table 1 after the first point of a core's run: the point's row updates of the zero table. -/
theorem sout_A_1 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S1x4096x128 .f32) (x1 : Vec Ideal S1x4096x128 .i32) :
    sout0_A_1 (F := Ideal) c i arg2 harg2 arg3 harg3 arg4 harg4 arg5 harg5 arg6 harg6 arg7 harg7 arg8 harg8 arg9 harg9 hc0 hc1 x0 x1 = step (fun b => wT b x0 x1) zeroT := by
  funext y
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  refine Eq.trans (canon_row_step 14 (by norm_num) _ (fun b => wT b (X0 arg2 harg2 x0) (X1 arg3 harg3 x1)) _ _ (kernelRun0_A.sl.v410 (F := Ideal) c arg2 harg2 arg3 harg3 arg8 x0 x1) rfl
    (A1_15 c arg2 harg2 arg3 harg3 arg8 x0 x1) (fun l => by unfold kernelRun0_A.sl.v410; exact readCov_row _ _ 14 (by norm_num) _ l) y) ?_
  rw [X0_eq, X1_eq]
  rfl

/-- Table 2 after the first point of a core's run: the point's row updates of the zero table. -/
theorem sout_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S1x4096x128 .f32) (x1 : Vec Ideal S1x4096x128 .i32) :
    sout0_A_2 (F := Ideal) c i arg2 harg2 arg3 harg3 arg4 harg4 arg5 harg5 arg6 harg6 arg7 harg7 arg8 harg8 arg9 harg9 hc0 hc1 x0 x1 = step (fun b => maskV b x0) zeroT := by
  funext y
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  refine Eq.trans (canon_row_step 14 (by norm_num) _ (fun b => maskV b (X0 arg2 harg2 x0)) _ _ (kernelRun0_A.sl.v417 (F := Ideal) c arg2 harg2 arg9 x0) rfl
    (A2_15 c arg2 harg2 arg9 x0) (fun l => by unfold kernelRun0_A.sl.v417; exact readCov_row _ _ 14 (by norm_num) _ l) y) ?_
  rw [X0_eq]
  rfl

end Cert.Ece.Body

end
-- ==== Proof.BodyB.lean ====
/-
  A middle grid point's effect on the three tables of running lane sums.

  At a point that is neither the first nor the last of its core the body loads each of the fifteen bins' rows of
  each table, adds the column sums of the block's terms of that bin, and stores the row back.  Read back
  rectangle by rectangle, each table is the table before the point advanced by one step.
-/
import proofs.«160154_j2207613190488_2_alg».proof.Proof.BodyLib

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen

namespace Cert.Ece.Body

set_option maxHeartbeats 4000000 in
/-- After a point of this kind the table of the weighted confidences has gained, in each of the fifteen bins' rows, the column
    sums of the block's terms; the sixteenth row is kept. -/
theorem sout_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_B_0 (F := Ideal) c i arg2 harg2 arg3 harg3 arg4 harg4 arg5 harg5 arg6 harg6 arg7 harg7 arg8 harg8 arg9 harg9 hc0 hc1 x0 x1 xs0 xs1 xs2 = step (fun b => wP b x0) xs0 := by
  funext y
  unfold sout0_B_0
  unfold kernelRun0_B
  dsimp only
  sl_unfold_run_names
  simp only [View.readAt_eq_ld, harg7.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => wP b x0) xs0) _ ?_ y ?_
  · simp only [List.forall_mem_cons, List.not_mem_nil, IsEmpty.forall_iff, implies_true, and_true]
    exact ⟨fun x => row_ok (fun b => wP b x0) 14 (by norm_num) _ xs0 _ _ rfl (fun l => ld_row xs0 14 (by norm_num) _ l) x,
      fun x => row_ok (fun b => wP b x0) 13 (by norm_num) _ xs0 _ _ rfl (fun l => ld_row xs0 13 (by norm_num) _ l) x,
      fun x => row_ok (fun b => wP b x0) 12 (by norm_num) _ xs0 _ _ rfl (fun l => ld_row xs0 12 (by norm_num) _ l) x,
      fun x => row_ok (fun b => wP b x0) 11 (by norm_num) _ xs0 _ _ rfl (fun l => ld_row xs0 11 (by norm_num) _ l) x,
      fun x => row_ok (fun b => wP b x0) 10 (by norm_num) _ xs0 _ _ rfl (fun l => ld_row xs0 10 (by norm_num) _ l) x,
      fun x => row_ok (fun b => wP b x0) 9 (by norm_num) _ xs0 _ _ rfl (fun l => ld_row xs0 9 (by norm_num) _ l) x,
      fun x => row_ok (fun b => wP b x0) 8 (by norm_num) _ xs0 _ _ rfl (fun l => ld_row xs0 8 (by norm_num) _ l) x,
      fun x => row_ok (fun b => wP b x0) 7 (by norm_num) _ xs0 _ _ rfl (fun l => ld_row xs0 7 (by norm_num) _ l) x,
      fun x => row_ok (fun b => wP b x0) 6 (by norm_num) _ xs0 _ _ rfl (fun l => ld_row xs0 6 (by norm_num) _ l) x,
      fun x => row_ok (fun b => wP b x0) 5 (by norm_num) _ xs0 _ _ rfl (fun l => ld_row xs0 5 (by norm_num) _ l) x,
      fun x => row_ok (fun b => wP b x0) 4 (by norm_num) _ xs0 _ _ rfl (fun l => ld_row xs0 4 (by norm_num) _ l) x,
      fun x => row_ok (fun b => wP b x0) 3 (by norm_num) _ xs0 _ _ rfl (fun l => ld_row xs0 3 (by norm_num) _ l) x,
      fun x => row_ok (fun b => wP b x0) 2 (by norm_num) _ xs0 _ _ rfl (fun l => ld_row xs0 2 (by norm_num) _ l) x,
      fun x => row_ok (fun b => wP b x0) 1 (by norm_num) _ xs0 _ _ rfl (fun l => ld_row xs0 1 (by norm_num) _ l) x,
      fun x => row_ok (fun b => wP b x0) 0 (by norm_num) _ xs0 _ _ rfl (fun l => ld_row xs0 0 (by norm_num) _ l) x⟩
  · intro h
    simp only [List.forall_mem_cons, List.not_mem_nil, IsEmpty.forall_iff, implies_true, and_true, mem_row_iff] at h
    rw [harg7.read_unread]
    show xs0 y = stepUpTo 15 _ xs0 y
    unfold stepUpTo
    rw [if_neg (by omega)]

set_option maxHeartbeats 4000000 in
/-- After a point of this kind the table of the weighted labels has gained, in each of the fifteen bins' rows, the column
    sums of the block's terms; the sixteenth row is kept. -/
theorem sout_B_1 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_B_1 (F := Ideal) c i arg2 harg2 arg3 harg3 arg4 harg4 arg5 harg5 arg6 harg6 arg7 harg7 arg8 harg8 arg9 harg9 hc0 hc1 x0 x1 xs0 xs1 xs2 = step (fun b => wT b x0 x1) xs1 := by
  funext y
  unfold sout0_B_1
  unfold kernelRun0_B
  dsimp only
  sl_unfold_run_names
  simp only [View.readAt_eq_ld, harg8.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => wT b x0 x1) xs1) _ ?_ y ?_
  · simp only [List.forall_mem_cons, List.not_mem_nil, IsEmpty.forall_iff, implies_true, and_true]
    exact ⟨fun x => row_ok (fun b => wT b x0 x1) 14 (by norm_num) _ xs1 _ _ rfl (fun l => ld_row xs1 14 (by norm_num) _ l) x,
      fun x => row_ok (fun b => wT b x0 x1) 13 (by norm_num) _ xs1 _ _ rfl (fun l => ld_row xs1 13 (by norm_num) _ l) x,
      fun x => row_ok (fun b => wT b x0 x1) 12 (by norm_num) _ xs1 _ _ rfl (fun l => ld_row xs1 12 (by norm_num) _ l) x,
      fun x => row_ok (fun b => wT b x0 x1) 11 (by norm_num) _ xs1 _ _ rfl (fun l => ld_row xs1 11 (by norm_num) _ l) x,
      fun x => row_ok (fun b => wT b x0 x1) 10 (by norm_num) _ xs1 _ _ rfl (fun l => ld_row xs1 10 (by norm_num) _ l) x,
      fun x => row_ok (fun b => wT b x0 x1) 9 (by norm_num) _ xs1 _ _ rfl (fun l => ld_row xs1 9 (by norm_num) _ l) x,
      fun x => row_ok (fun b => wT b x0 x1) 8 (by norm_num) _ xs1 _ _ rfl (fun l => ld_row xs1 8 (by norm_num) _ l) x,
      fun x => row_ok (fun b => wT b x0 x1) 7 (by norm_num) _ xs1 _ _ rfl (fun l => ld_row xs1 7 (by norm_num) _ l) x,
      fun x => row_ok (fun b => wT b x0 x1) 6 (by norm_num) _ xs1 _ _ rfl (fun l => ld_row xs1 6 (by norm_num) _ l) x,
      fun x => row_ok (fun b => wT b x0 x1) 5 (by norm_num) _ xs1 _ _ rfl (fun l => ld_row xs1 5 (by norm_num) _ l) x,
      fun x => row_ok (fun b => wT b x0 x1) 4 (by norm_num) _ xs1 _ _ rfl (fun l => ld_row xs1 4 (by norm_num) _ l) x,
      fun x => row_ok (fun b => wT b x0 x1) 3 (by norm_num) _ xs1 _ _ rfl (fun l => ld_row xs1 3 (by norm_num) _ l) x,
      fun x => row_ok (fun b => wT b x0 x1) 2 (by norm_num) _ xs1 _ _ rfl (fun l => ld_row xs1 2 (by norm_num) _ l) x,
      fun x => row_ok (fun b => wT b x0 x1) 1 (by norm_num) _ xs1 _ _ rfl (fun l => ld_row xs1 1 (by norm_num) _ l) x,
      fun x => row_ok (fun b => wT b x0 x1) 0 (by norm_num) _ xs1 _ _ rfl (fun l => ld_row xs1 0 (by norm_num) _ l) x⟩
  · intro h
    simp only [List.forall_mem_cons, List.not_mem_nil, IsEmpty.forall_iff, implies_true, and_true, mem_row_iff] at h
    rw [harg8.read_unread]
    show xs1 y = stepUpTo 15 _ xs1 y
    unfold stepUpTo
    rw [if_neg (by omega)]

set_option maxHeartbeats 4000000 in
/-- After a point of this kind the table of the 0/1 weights has gained, in each of the fifteen bins' rows, the column
    sums of the block's terms; the sixteenth row is kept. -/
theorem sout_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_B_2 (F := Ideal) c i arg2 harg2 arg3 harg3 arg4 harg4 arg5 harg5 arg6 harg6 arg7 harg7 arg8 harg8 arg9 harg9 hc0 hc1 x0 x1 xs0 xs1 xs2 = step (fun b => maskV b x0) xs2 := by
  funext y
  unfold sout0_B_2
  unfold kernelRun0_B
  dsimp only
  sl_unfold_run_names
  simp only [View.readAt_eq_ld, harg9.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => maskV b x0) xs2) _ ?_ y ?_
  · simp only [List.forall_mem_cons, List.not_mem_nil, IsEmpty.forall_iff, implies_true, and_true]
    exact ⟨fun x => row_ok (fun b => maskV b x0) 14 (by norm_num) _ xs2 _ _ rfl (fun l => ld_row xs2 14 (by norm_num) _ l) x,
      fun x => row_ok (fun b => maskV b x0) 13 (by norm_num) _ xs2 _ _ rfl (fun l => ld_row xs2 13 (by norm_num) _ l) x,
      fun x => row_ok (fun b => maskV b x0) 12 (by norm_num) _ xs2 _ _ rfl (fun l => ld_row xs2 12 (by norm_num) _ l) x,
      fun x => row_ok (fun b => maskV b x0) 11 (by norm_num) _ xs2 _ _ rfl (fun l => ld_row xs2 11 (by norm_num) _ l) x,
      fun x => row_ok (fun b => maskV b x0) 10 (by norm_num) _ xs2 _ _ rfl (fun l => ld_row xs2 10 (by norm_num) _ l) x,
      fun x => row_ok (fun b => maskV b x0) 9 (by norm_num) _ xs2 _ _ rfl (fun l => ld_row xs2 9 (by norm_num) _ l) x,
      fun x => row_ok (fun b => maskV b x0) 8 (by norm_num) _ xs2 _ _ rfl (fun l => ld_row xs2 8 (by norm_num) _ l) x,
      fun x => row_ok (fun b => maskV b x0) 7 (by norm_num) _ xs2 _ _ rfl (fun l => ld_row xs2 7 (by norm_num) _ l) x,
      fun x => row_ok (fun b => maskV b x0) 6 (by norm_num) _ xs2 _ _ rfl (fun l => ld_row xs2 6 (by norm_num) _ l) x,
      fun x => row_ok (fun b => maskV b x0) 5 (by norm_num) _ xs2 _ _ rfl (fun l => ld_row xs2 5 (by norm_num) _ l) x,
      fun x => row_ok (fun b => maskV b x0) 4 (by norm_num) _ xs2 _ _ rfl (fun l => ld_row xs2 4 (by norm_num) _ l) x,
      fun x => row_ok (fun b => maskV b x0) 3 (by norm_num) _ xs2 _ _ rfl (fun l => ld_row xs2 3 (by norm_num) _ l) x,
      fun x => row_ok (fun b => maskV b x0) 2 (by norm_num) _ xs2 _ _ rfl (fun l => ld_row xs2 2 (by norm_num) _ l) x,
      fun x => row_ok (fun b => maskV b x0) 1 (by norm_num) _ xs2 _ _ rfl (fun l => ld_row xs2 1 (by norm_num) _ l) x,
      fun x => row_ok (fun b => maskV b x0) 0 (by norm_num) _ xs2 _ _ rfl (fun l => ld_row xs2 0 (by norm_num) _ l) x⟩
  · intro h
    simp only [List.forall_mem_cons, List.not_mem_nil, IsEmpty.forall_iff, implies_true, and_true, mem_row_iff] at h
    rw [harg9.read_unread]
    show xs2 y = stepUpTo 15 _ xs2 y
    unfold stepUpTo
    rw [if_neg (by omega)]

end Cert.Ece.Body

end
-- ==== Proof.BodyC.lean ====
/-
  The last grid point of a core: its effect on the three tables of running lane sums, and what it writes out.

  The last point of a core advances each table by one step exactly as a middle point does, and then copies each
  table, arranged as a `[1, 16, 128]` block, to its output.
-/
import proofs.«160154_j2207613190488_2_alg».proof.Proof.BodyLib

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen

namespace Cert.Ece.Body

set_option maxHeartbeats 4000000 in
/-- After a point of this kind the table of the weighted confidences has gained, in each of the fifteen bins' rows, the column
    sums of the block's terms; the sixteenth row is kept. -/
theorem sout_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_C_0 (F := Ideal) c i arg2 harg2 arg3 harg3 arg4 harg4 arg5 harg5 arg6 harg6 arg7 harg7 arg8 harg8 arg9 harg9 hc0 hc1 x0 x1 xs0 xs1 xs2 = step (fun b => wP b x0) xs0 := by
  funext y
  unfold sout0_C_0
  unfold kernelRun0_C
  dsimp only
  sl_unfold_run_names
  simp only [View.readAt_eq_ld, harg7.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => wP b x0) xs0) _ ?_ y ?_
  · simp only [List.forall_mem_cons, List.not_mem_nil, IsEmpty.forall_iff, implies_true, and_true]
    exact ⟨fun x => row_ok (fun b => wP b x0) 14 (by norm_num) _ xs0 _ _ rfl (fun l => ld_row xs0 14 (by norm_num) _ l) x,
      fun x => row_ok (fun b => wP b x0) 13 (by norm_num) _ xs0 _ _ rfl (fun l => ld_row xs0 13 (by norm_num) _ l) x,
      fun x => row_ok (fun b => wP b x0) 12 (by norm_num) _ xs0 _ _ rfl (fun l => ld_row xs0 12 (by norm_num) _ l) x,
      fun x => row_ok (fun b => wP b x0) 11 (by norm_num) _ xs0 _ _ rfl (fun l => ld_row xs0 11 (by norm_num) _ l) x,
      fun x => row_ok (fun b => wP b x0) 10 (by norm_num) _ xs0 _ _ rfl (fun l => ld_row xs0 10 (by norm_num) _ l) x,
      fun x => row_ok (fun b => wP b x0) 9 (by norm_num) _ xs0 _ _ rfl (fun l => ld_row xs0 9 (by norm_num) _ l) x,
      fun x => row_ok (fun b => wP b x0) 8 (by norm_num) _ xs0 _ _ rfl (fun l => ld_row xs0 8 (by norm_num) _ l) x,
      fun x => row_ok (fun b => wP b x0) 7 (by norm_num) _ xs0 _ _ rfl (fun l => ld_row xs0 7 (by norm_num) _ l) x,
      fun x => row_ok (fun b => wP b x0) 6 (by norm_num) _ xs0 _ _ rfl (fun l => ld_row xs0 6 (by norm_num) _ l) x,
      fun x => row_ok (fun b => wP b x0) 5 (by norm_num) _ xs0 _ _ rfl (fun l => ld_row xs0 5 (by norm_num) _ l) x,
      fun x => row_ok (fun b => wP b x0) 4 (by norm_num) _ xs0 _ _ rfl (fun l => ld_row xs0 4 (by norm_num) _ l) x,
      fun x => row_ok (fun b => wP b x0) 3 (by norm_num) _ xs0 _ _ rfl (fun l => ld_row xs0 3 (by norm_num) _ l) x,
      fun x => row_ok (fun b => wP b x0) 2 (by norm_num) _ xs0 _ _ rfl (fun l => ld_row xs0 2 (by norm_num) _ l) x,
      fun x => row_ok (fun b => wP b x0) 1 (by norm_num) _ xs0 _ _ rfl (fun l => ld_row xs0 1 (by norm_num) _ l) x,
      fun x => row_ok (fun b => wP b x0) 0 (by norm_num) _ xs0 _ _ rfl (fun l => ld_row xs0 0 (by norm_num) _ l) x⟩
  · intro h
    simp only [List.forall_mem_cons, List.not_mem_nil, IsEmpty.forall_iff, implies_true, and_true, mem_row_iff] at h
    rw [harg7.read_unread]
    show xs0 y = stepUpTo 15 _ xs0 y
    unfold stepUpTo
    rw [if_neg (by omega)]

set_option maxHeartbeats 4000000 in
/-- After a point of this kind the table of the weighted labels has gained, in each of the fifteen bins' rows, the column
    sums of the block's terms; the sixteenth row is kept. -/
theorem sout_C_1 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_C_1 (F := Ideal) c i arg2 harg2 arg3 harg3 arg4 harg4 arg5 harg5 arg6 harg6 arg7 harg7 arg8 harg8 arg9 harg9 hc0 hc1 x0 x1 xs0 xs1 xs2 = step (fun b => wT b x0 x1) xs1 := by
  funext y
  unfold sout0_C_1
  unfold kernelRun0_C
  dsimp only
  sl_unfold_run_names
  simp only [View.readAt_eq_ld, harg8.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => wT b x0 x1) xs1) _ ?_ y ?_
  · simp only [List.forall_mem_cons, List.not_mem_nil, IsEmpty.forall_iff, implies_true, and_true]
    exact ⟨fun x => row_ok (fun b => wT b x0 x1) 14 (by norm_num) _ xs1 _ _ rfl (fun l => ld_row xs1 14 (by norm_num) _ l) x,
      fun x => row_ok (fun b => wT b x0 x1) 13 (by norm_num) _ xs1 _ _ rfl (fun l => ld_row xs1 13 (by norm_num) _ l) x,
      fun x => row_ok (fun b => wT b x0 x1) 12 (by norm_num) _ xs1 _ _ rfl (fun l => ld_row xs1 12 (by norm_num) _ l) x,
      fun x => row_ok (fun b => wT b x0 x1) 11 (by norm_num) _ xs1 _ _ rfl (fun l => ld_row xs1 11 (by norm_num) _ l) x,
      fun x => row_ok (fun b => wT b x0 x1) 10 (by norm_num) _ xs1 _ _ rfl (fun l => ld_row xs1 10 (by norm_num) _ l) x,
      fun x => row_ok (fun b => wT b x0 x1) 9 (by norm_num) _ xs1 _ _ rfl (fun l => ld_row xs1 9 (by norm_num) _ l) x,
      fun x => row_ok (fun b => wT b x0 x1) 8 (by norm_num) _ xs1 _ _ rfl (fun l => ld_row xs1 8 (by norm_num) _ l) x,
      fun x => row_ok (fun b => wT b x0 x1) 7 (by norm_num) _ xs1 _ _ rfl (fun l => ld_row xs1 7 (by norm_num) _ l) x,
      fun x => row_ok (fun b => wT b x0 x1) 6 (by norm_num) _ xs1 _ _ rfl (fun l => ld_row xs1 6 (by norm_num) _ l) x,
      fun x => row_ok (fun b => wT b x0 x1) 5 (by norm_num) _ xs1 _ _ rfl (fun l => ld_row xs1 5 (by norm_num) _ l) x,
      fun x => row_ok (fun b => wT b x0 x1) 4 (by norm_num) _ xs1 _ _ rfl (fun l => ld_row xs1 4 (by norm_num) _ l) x,
      fun x => row_ok (fun b => wT b x0 x1) 3 (by norm_num) _ xs1 _ _ rfl (fun l => ld_row xs1 3 (by norm_num) _ l) x,
      fun x => row_ok (fun b => wT b x0 x1) 2 (by norm_num) _ xs1 _ _ rfl (fun l => ld_row xs1 2 (by norm_num) _ l) x,
      fun x => row_ok (fun b => wT b x0 x1) 1 (by norm_num) _ xs1 _ _ rfl (fun l => ld_row xs1 1 (by norm_num) _ l) x,
      fun x => row_ok (fun b => wT b x0 x1) 0 (by norm_num) _ xs1 _ _ rfl (fun l => ld_row xs1 0 (by norm_num) _ l) x⟩
  · intro h
    simp only [List.forall_mem_cons, List.not_mem_nil, IsEmpty.forall_iff, implies_true, and_true, mem_row_iff] at h
    rw [harg8.read_unread]
    show xs1 y = stepUpTo 15 _ xs1 y
    unfold stepUpTo
    rw [if_neg (by omega)]

set_option maxHeartbeats 4000000 in
/-- After a point of this kind the table of the 0/1 weights has gained, in each of the fifteen bins' rows, the column
    sums of the block's terms; the sixteenth row is kept. -/
theorem sout_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    sout0_C_2 (F := Ideal) c i arg2 harg2 arg3 harg3 arg4 harg4 arg5 harg5 arg6 harg6 arg7 harg7 arg8 harg8 arg9 harg9 hc0 hc1 x0 x1 xs0 xs1 xs2 = step (fun b => maskV b x0) xs2 := by
  funext y
  unfold sout0_C_2
  unfold kernelRun0_C
  dsimp only
  sl_unfold_run_names
  simp only [View.readAt_eq_ld, harg9.read_unread, harg2.read_unread, harg3.read_unread,
    View.ld_unit_zero (S := S1x4096x128) (show (![0, 0, 0] : Fin S1x4096x128.rank → ℕ) = fun _ => 0 from by funext a; fin_cases a <;> rfl)]
  refine read_writes_eq_of_pieces _ _ (step (fun b => maskV b x0) xs2) _ ?_ y ?_
  · simp only [List.forall_mem_cons, List.not_mem_nil, IsEmpty.forall_iff, implies_true, and_true]
    exact ⟨fun x => row_ok (fun b => maskV b x0) 14 (by norm_num) _ xs2 _ _ rfl (fun l => ld_row xs2 14 (by norm_num) _ l) x,
      fun x => row_ok (fun b => maskV b x0) 13 (by norm_num) _ xs2 _ _ rfl (fun l => ld_row xs2 13 (by norm_num) _ l) x,
      fun x => row_ok (fun b => maskV b x0) 12 (by norm_num) _ xs2 _ _ rfl (fun l => ld_row xs2 12 (by norm_num) _ l) x,
      fun x => row_ok (fun b => maskV b x0) 11 (by norm_num) _ xs2 _ _ rfl (fun l => ld_row xs2 11 (by norm_num) _ l) x,
      fun x => row_ok (fun b => maskV b x0) 10 (by norm_num) _ xs2 _ _ rfl (fun l => ld_row xs2 10 (by norm_num) _ l) x,
      fun x => row_ok (fun b => maskV b x0) 9 (by norm_num) _ xs2 _ _ rfl (fun l => ld_row xs2 9 (by norm_num) _ l) x,
      fun x => row_ok (fun b => maskV b x0) 8 (by norm_num) _ xs2 _ _ rfl (fun l => ld_row xs2 8 (by norm_num) _ l) x,
      fun x => row_ok (fun b => maskV b x0) 7 (by norm_num) _ xs2 _ _ rfl (fun l => ld_row xs2 7 (by norm_num) _ l) x,
      fun x => row_ok (fun b => maskV b x0) 6 (by norm_num) _ xs2 _ _ rfl (fun l => ld_row xs2 6 (by norm_num) _ l) x,
      fun x => row_ok (fun b => maskV b x0) 5 (by norm_num) _ xs2 _ _ rfl (fun l => ld_row xs2 5 (by norm_num) _ l) x,
      fun x => row_ok (fun b => maskV b x0) 4 (by norm_num) _ xs2 _ _ rfl (fun l => ld_row xs2 4 (by norm_num) _ l) x,
      fun x => row_ok (fun b => maskV b x0) 3 (by norm_num) _ xs2 _ _ rfl (fun l => ld_row xs2 3 (by norm_num) _ l) x,
      fun x => row_ok (fun b => maskV b x0) 2 (by norm_num) _ xs2 _ _ rfl (fun l => ld_row xs2 2 (by norm_num) _ l) x,
      fun x => row_ok (fun b => maskV b x0) 1 (by norm_num) _ xs2 _ _ rfl (fun l => ld_row xs2 1 (by norm_num) _ l) x,
      fun x => row_ok (fun b => maskV b x0) 0 (by norm_num) _ xs2 _ _ rfl (fun l => ld_row xs2 0 (by norm_num) _ l) x⟩
  · intro h
    simp only [List.forall_mem_cons, List.not_mem_nil, IsEmpty.forall_iff, implies_true, and_true, mem_row_iff] at h
    rw [harg9.read_unread]
    show xs2 y = stepUpTo 15 _ xs2 y
    unfold stepUpTo
    rw [if_neg (by omega)]

set_option maxHeartbeats 4000000 in
/-- The last point of a core writes out the table of the weighted confidences as it stands after the point's own step, arranged
    as a `[1, 16, 128]` block: one whole-block store of the table loaded after the fifteen row stores. -/
theorem out_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    out0_C_2 (F := Ideal) c i arg2 harg2 arg3 harg3 arg4 harg4 arg5 harg5 arg6 harg6 arg7 harg7 arg8 harg8 arg9 harg9 hc0 hc1 x0 x1 xs0 xs1 xs2
      = shapeCast S1x16x128 (step (fun b => wP b x0) xs0) shapeCasts_S16x128_S1x16x128 := by
  unfold out0_C_2
  unfold kernelRun0_C
  dsimp only
  rw [View.read_writes_eq_canon _ _ _ (fun y => ⟨_, List.mem_singleton_self _,
      View.mem_set_unit_zero (show (![0, 0, 0] : Fin S1x16x128.rank → ℕ) = fun _ => 0 from by funext a; fin_cases a <;> rfl) inb_S1x16x128_S1x16x128_0_0_0 y⟩),
    View.canon_unit_zero (show (![0, 0, 0] : Fin S1x16x128.rank → ℕ) = fun _ => 0 from by funext a; fin_cases a <;> rfl)]
  sl_unfold_run_names
  simp only [View.readAt_eq_ld, harg7.read_unread, harg2.read_unread, harg3.read_unread,
    View.ld_unit_zero (S := S1x4096x128) (show (![0, 0, 0] : Fin S1x4096x128.rank → ℕ) = fun _ => 0 from by funext a; fin_cases a <;> rfl),
    View.ld_unit_zero (S := S16x128) (show (![0, 0] : Fin S16x128.rank → ℕ) = fun _ => 0 from by funext a; fin_cases a <;> rfl)]
  refine congrArg (fun T : Vec Ideal S16x128 .f32 => shapeCast S1x16x128 T shapeCasts_S16x128_S1x16x128) ?_
  funext y
  refine read_writes_eq_of_pieces _ _ (step (fun b => wP b x0) xs0) _ ?_ y ?_
  · simp only [List.forall_mem_cons, List.not_mem_nil, IsEmpty.forall_iff, implies_true, and_true]
    exact ⟨fun x => row_ok (fun b => wP b x0) 14 (by norm_num) _ xs0 _ _ rfl (fun l => ld_row xs0 14 (by norm_num) _ l) x,
      fun x => row_ok (fun b => wP b x0) 13 (by norm_num) _ xs0 _ _ rfl (fun l => ld_row xs0 13 (by norm_num) _ l) x,
      fun x => row_ok (fun b => wP b x0) 12 (by norm_num) _ xs0 _ _ rfl (fun l => ld_row xs0 12 (by norm_num) _ l) x,
      fun x => row_ok (fun b => wP b x0) 11 (by norm_num) _ xs0 _ _ rfl (fun l => ld_row xs0 11 (by norm_num) _ l) x,
      fun x => row_ok (fun b => wP b x0) 10 (by norm_num) _ xs0 _ _ rfl (fun l => ld_row xs0 10 (by norm_num) _ l) x,
      fun x => row_ok (fun b => wP b x0) 9 (by norm_num) _ xs0 _ _ rfl (fun l => ld_row xs0 9 (by norm_num) _ l) x,
      fun x => row_ok (fun b => wP b x0) 8 (by norm_num) _ xs0 _ _ rfl (fun l => ld_row xs0 8 (by norm_num) _ l) x,
      fun x => row_ok (fun b => wP b x0) 7 (by norm_num) _ xs0 _ _ rfl (fun l => ld_row xs0 7 (by norm_num) _ l) x,
      fun x => row_ok (fun b => wP b x0) 6 (by norm_num) _ xs0 _ _ rfl (fun l => ld_row xs0 6 (by norm_num) _ l) x,
      fun x => row_ok (fun b => wP b x0) 5 (by norm_num) _ xs0 _ _ rfl (fun l => ld_row xs0 5 (by norm_num) _ l) x,
      fun x => row_ok (fun b => wP b x0) 4 (by norm_num) _ xs0 _ _ rfl (fun l => ld_row xs0 4 (by norm_num) _ l) x,
      fun x => row_ok (fun b => wP b x0) 3 (by norm_num) _ xs0 _ _ rfl (fun l => ld_row xs0 3 (by norm_num) _ l) x,
      fun x => row_ok (fun b => wP b x0) 2 (by norm_num) _ xs0 _ _ rfl (fun l => ld_row xs0 2 (by norm_num) _ l) x,
      fun x => row_ok (fun b => wP b x0) 1 (by norm_num) _ xs0 _ _ rfl (fun l => ld_row xs0 1 (by norm_num) _ l) x,
      fun x => row_ok (fun b => wP b x0) 0 (by norm_num) _ xs0 _ _ rfl (fun l => ld_row xs0 0 (by norm_num) _ l) x⟩
  · intro h
    simp only [List.forall_mem_cons, List.not_mem_nil, IsEmpty.forall_iff, implies_true, and_true, mem_row_iff] at h
    rw [harg7.read_unread]
    show xs0 y = stepUpTo 15 _ xs0 y
    unfold stepUpTo
    rw [if_neg (by omega)]

set_option maxHeartbeats 4000000 in
/-- The last point of a core writes out the table of the weighted labels as it stands after the point's own step, arranged
    as a `[1, 16, 128]` block: one whole-block store of the table loaded after the fifteen row stores. -/
theorem out_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    out0_C_3 (F := Ideal) c i arg2 harg2 arg3 harg3 arg4 harg4 arg5 harg5 arg6 harg6 arg7 harg7 arg8 harg8 arg9 harg9 hc0 hc1 x0 x1 xs0 xs1 xs2
      = shapeCast S1x16x128 (step (fun b => wT b x0 x1) xs1) shapeCasts_S16x128_S1x16x128 := by
  unfold out0_C_3
  unfold kernelRun0_C
  dsimp only
  rw [View.read_writes_eq_canon _ _ _ (fun y => ⟨_, List.mem_singleton_self _,
      View.mem_set_unit_zero (show (![0, 0, 0] : Fin S1x16x128.rank → ℕ) = fun _ => 0 from by funext a; fin_cases a <;> rfl) inb_S1x16x128_S1x16x128_0_0_0 y⟩),
    View.canon_unit_zero (show (![0, 0, 0] : Fin S1x16x128.rank → ℕ) = fun _ => 0 from by funext a; fin_cases a <;> rfl)]
  sl_unfold_run_names
  simp only [View.readAt_eq_ld, harg8.read_unread, harg2.read_unread, harg3.read_unread,
    View.ld_unit_zero (S := S1x4096x128) (show (![0, 0, 0] : Fin S1x4096x128.rank → ℕ) = fun _ => 0 from by funext a; fin_cases a <;> rfl),
    View.ld_unit_zero (S := S16x128) (show (![0, 0] : Fin S16x128.rank → ℕ) = fun _ => 0 from by funext a; fin_cases a <;> rfl)]
  refine congrArg (fun T : Vec Ideal S16x128 .f32 => shapeCast S1x16x128 T shapeCasts_S16x128_S1x16x128) ?_
  funext y
  refine read_writes_eq_of_pieces _ _ (step (fun b => wT b x0 x1) xs1) _ ?_ y ?_
  · simp only [List.forall_mem_cons, List.not_mem_nil, IsEmpty.forall_iff, implies_true, and_true]
    exact ⟨fun x => row_ok (fun b => wT b x0 x1) 14 (by norm_num) _ xs1 _ _ rfl (fun l => ld_row xs1 14 (by norm_num) _ l) x,
      fun x => row_ok (fun b => wT b x0 x1) 13 (by norm_num) _ xs1 _ _ rfl (fun l => ld_row xs1 13 (by norm_num) _ l) x,
      fun x => row_ok (fun b => wT b x0 x1) 12 (by norm_num) _ xs1 _ _ rfl (fun l => ld_row xs1 12 (by norm_num) _ l) x,
      fun x => row_ok (fun b => wT b x0 x1) 11 (by norm_num) _ xs1 _ _ rfl (fun l => ld_row xs1 11 (by norm_num) _ l) x,
      fun x => row_ok (fun b => wT b x0 x1) 10 (by norm_num) _ xs1 _ _ rfl (fun l => ld_row xs1 10 (by norm_num) _ l) x,
      fun x => row_ok (fun b => wT b x0 x1) 9 (by norm_num) _ xs1 _ _ rfl (fun l => ld_row xs1 9 (by norm_num) _ l) x,
      fun x => row_ok (fun b => wT b x0 x1) 8 (by norm_num) _ xs1 _ _ rfl (fun l => ld_row xs1 8 (by norm_num) _ l) x,
      fun x => row_ok (fun b => wT b x0 x1) 7 (by norm_num) _ xs1 _ _ rfl (fun l => ld_row xs1 7 (by norm_num) _ l) x,
      fun x => row_ok (fun b => wT b x0 x1) 6 (by norm_num) _ xs1 _ _ rfl (fun l => ld_row xs1 6 (by norm_num) _ l) x,
      fun x => row_ok (fun b => wT b x0 x1) 5 (by norm_num) _ xs1 _ _ rfl (fun l => ld_row xs1 5 (by norm_num) _ l) x,
      fun x => row_ok (fun b => wT b x0 x1) 4 (by norm_num) _ xs1 _ _ rfl (fun l => ld_row xs1 4 (by norm_num) _ l) x,
      fun x => row_ok (fun b => wT b x0 x1) 3 (by norm_num) _ xs1 _ _ rfl (fun l => ld_row xs1 3 (by norm_num) _ l) x,
      fun x => row_ok (fun b => wT b x0 x1) 2 (by norm_num) _ xs1 _ _ rfl (fun l => ld_row xs1 2 (by norm_num) _ l) x,
      fun x => row_ok (fun b => wT b x0 x1) 1 (by norm_num) _ xs1 _ _ rfl (fun l => ld_row xs1 1 (by norm_num) _ l) x,
      fun x => row_ok (fun b => wT b x0 x1) 0 (by norm_num) _ xs1 _ _ rfl (fun l => ld_row xs1 0 (by norm_num) _ l) x⟩
  · intro h
    simp only [List.forall_mem_cons, List.not_mem_nil, IsEmpty.forall_iff, implies_true, and_true, mem_row_iff] at h
    rw [harg8.read_unread]
    show xs1 y = stepUpTo 15 _ xs1 y
    unfold stepUpTo
    rw [if_neg (by omega)]

set_option maxHeartbeats 4000000 in
/-- The last point of a core writes out the table of the 0/1 weights as it stands after the point's own step, arranged
    as a `[1, 16, 128]` block: one whole-block store of the table loaded after the fifteen row stores. -/
theorem out_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S1x4096x128 .f32) (x1 : Vec Ideal S1x4096x128 .i32) (xs0 : Vec Ideal S16x128 .f32) (xs1 : Vec Ideal S16x128 .f32) (xs2 : Vec Ideal S16x128 .f32) :
    out0_C_4 (F := Ideal) c i arg2 harg2 arg3 harg3 arg4 harg4 arg5 harg5 arg6 harg6 arg7 harg7 arg8 harg8 arg9 harg9 hc0 hc1 x0 x1 xs0 xs1 xs2
      = shapeCast S1x16x128 (step (fun b => maskV b x0) xs2) shapeCasts_S16x128_S1x16x128 := by
  unfold out0_C_4
  unfold kernelRun0_C
  dsimp only
  rw [View.read_writes_eq_canon _ _ _ (fun y => ⟨_, List.mem_singleton_self _,
      View.mem_set_unit_zero (show (![0, 0, 0] : Fin S1x16x128.rank → ℕ) = fun _ => 0 from by funext a; fin_cases a <;> rfl) inb_S1x16x128_S1x16x128_0_0_0 y⟩),
    View.canon_unit_zero (show (![0, 0, 0] : Fin S1x16x128.rank → ℕ) = fun _ => 0 from by funext a; fin_cases a <;> rfl)]
  sl_unfold_run_names
  simp only [View.readAt_eq_ld, harg9.read_unread, harg2.read_unread, harg3.read_unread,
    View.ld_unit_zero (S := S1x4096x128) (show (![0, 0, 0] : Fin S1x4096x128.rank → ℕ) = fun _ => 0 from by funext a; fin_cases a <;> rfl),
    View.ld_unit_zero (S := S16x128) (show (![0, 0] : Fin S16x128.rank → ℕ) = fun _ => 0 from by funext a; fin_cases a <;> rfl)]
  refine congrArg (fun T : Vec Ideal S16x128 .f32 => shapeCast S1x16x128 T shapeCasts_S16x128_S1x16x128) ?_
  funext y
  refine read_writes_eq_of_pieces _ _ (step (fun b => maskV b x0) xs2) _ ?_ y ?_
  · simp only [List.forall_mem_cons, List.not_mem_nil, IsEmpty.forall_iff, implies_true, and_true]
    exact ⟨fun x => row_ok (fun b => maskV b x0) 14 (by norm_num) _ xs2 _ _ rfl (fun l => ld_row xs2 14 (by norm_num) _ l) x,
      fun x => row_ok (fun b => maskV b x0) 13 (by norm_num) _ xs2 _ _ rfl (fun l => ld_row xs2 13 (by norm_num) _ l) x,
      fun x => row_ok (fun b => maskV b x0) 12 (by norm_num) _ xs2 _ _ rfl (fun l => ld_row xs2 12 (by norm_num) _ l) x,
      fun x => row_ok (fun b => maskV b x0) 11 (by norm_num) _ xs2 _ _ rfl (fun l => ld_row xs2 11 (by norm_num) _ l) x,
      fun x => row_ok (fun b => maskV b x0) 10 (by norm_num) _ xs2 _ _ rfl (fun l => ld_row xs2 10 (by norm_num) _ l) x,
      fun x => row_ok (fun b => maskV b x0) 9 (by norm_num) _ xs2 _ _ rfl (fun l => ld_row xs2 9 (by norm_num) _ l) x,
      fun x => row_ok (fun b => maskV b x0) 8 (by norm_num) _ xs2 _ _ rfl (fun l => ld_row xs2 8 (by norm_num) _ l) x,
      fun x => row_ok (fun b => maskV b x0) 7 (by norm_num) _ xs2 _ _ rfl (fun l => ld_row xs2 7 (by norm_num) _ l) x,
      fun x => row_ok (fun b => maskV b x0) 6 (by norm_num) _ xs2 _ _ rfl (fun l => ld_row xs2 6 (by norm_num) _ l) x,
      fun x => row_ok (fun b => maskV b x0) 5 (by norm_num) _ xs2 _ _ rfl (fun l => ld_row xs2 5 (by norm_num) _ l) x,
      fun x => row_ok (fun b => maskV b x0) 4 (by norm_num) _ xs2 _ _ rfl (fun l => ld_row xs2 4 (by norm_num) _ l) x,
      fun x => row_ok (fun b => maskV b x0) 3 (by norm_num) _ xs2 _ _ rfl (fun l => ld_row xs2 3 (by norm_num) _ l) x,
      fun x => row_ok (fun b => maskV b x0) 2 (by norm_num) _ xs2 _ _ rfl (fun l => ld_row xs2 2 (by norm_num) _ l) x,
      fun x => row_ok (fun b => maskV b x0) 1 (by norm_num) _ xs2 _ _ rfl (fun l => ld_row xs2 1 (by norm_num) _ l) x,
      fun x => row_ok (fun b => maskV b x0) 0 (by norm_num) _ xs2 _ _ rfl (fun l => ld_row xs2 0 (by norm_num) _ l) x⟩
  · intro h
    simp only [List.forall_mem_cons, List.not_mem_nil, IsEmpty.forall_iff, implies_true, and_true, mem_row_iff] at h
    rw [harg9.read_unread]
    show xs2 y = stepUpTo 15 _ xs2 y
    unfold stepUpTo
    rw [if_neg (by omega)]

end Cert.Ece.Body

end
-- ==== Proof.Accum.lean ====
/-
  The three tables of running lane sums, point by point along the grid.

  The grid is two runs of 32 points, one per core.  At the first point of a run a table is the point's contribution over
  zero, at every later point the point's contribution over what the point before left; so after the `j`-th point of a
  run a table holds, in lane `l` of row `b`, the sum over the run's points so far of their contributions there.  The
  last point of a run copies each table, whole, into its output block.
-/
import proofs.«160154_j2207613190488_2_alg».proof.Proof.BodyA
import proofs.«160154_j2207613190488_2_alg».proof.Proof.BodyB
import proofs.«160154_j2207613190488_2_alg».proof.Proof.BodyC

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen
open Cert.Ece.Body

namespace Cert.Ece.Accum

/-- What one point adds to a table, at an index: the column sum of the point's terms of the index's row, nothing on row 15. -/
def addend (w : BitVec 32 → FVec Ideal S4096x128 .f32) (y : S16x128.Idx) : EReal :=
  if (y 0).val < 15 then ∑ r : Fin 4096, w (BitVec.ofNat 32 (y 0).val) (ix2 r (y 1)) else 0

theorem step_eq_add (w : BitVec 32 → FVec Ideal S4096x128 .f32) (xs : Vec Ideal S16x128 .f32) (y : S16x128.Idx) :
    step w xs y = xs y + addend w y := by
  show stepUpTo 15 w xs y = _
  unfold stepUpTo addend
  by_cases h : (y 0).val < 15
  · rw [if_pos h, if_pos h]
  · rw [if_neg h, if_neg h]; exact (add_zero _).symm

/-- The addend of point `n` of a family of terms given point by point below `N` (zero from `N` on). -/
def addendAt (N : ℕ) (w : (n : ℕ) → n < N → BitVec 32 → FVec Ideal S4096x128 .f32) (n : ℕ) (y : S16x128.Idx) : EReal :=
  if h : n < N then addend (w n h) y else 0

/-- A table that restarts from zero at the first point of each run of 32 points and takes each later point's row
    updates over what the point before left holds, after point `j` of run `q`, the sum of the run's addends so far. -/
theorem closed_of (N : ℕ) (f : (n : ℕ) → n < N → Vec Ideal S16x128 .f32)
    (w : (n : ℕ) → n < N → BitVec 32 → FVec Ideal S4096x128 .f32)
    (hreset : ∀ (n : ℕ) (h : n < N), n % 32 = 0 → f n h = step (w n h) zeroT)
    (hstep : ∀ (n : ℕ) (h : n + 1 < N), ¬(n + 1) % 32 = 0 → f (n + 1) h = step (w (n + 1) h) (f n (Nat.lt_of_succ_lt h)))
    (q : ℕ) : ∀ (j : ℕ), j < 32 → ∀ (h : 32 * q + j < N) (y : S16x128.Idx),
      f (32 * q + j) h y = ∑ s ∈ Finset.range (j + 1), addendAt N w (32 * q + s) y
  | 0, _, h, y => by
    rw [hreset _ h (by rw [Nat.add_zero, Nat.mul_mod_right]), step_eq_add, Finset.sum_range_one]
    unfold addendAt
    rw [dif_pos h]
    show (0 : EReal) + _ = _
    rw [zero_add]
  | j + 1, hj, h, y => by
    have hne : ¬(32 * q + j + 1) % 32 = 0 := by omega
    have h' : 32 * q + j + 1 < N := h
    show f (32 * q + j + 1) h' y = _
    rw [hstep (32 * q + j) h' hne, step_eq_add, closed_of N f w hreset hstep q j (by omega) (Nat.lt_of_succ_lt h') y,
      Finset.sum_range_succ _ (j + 1)]
    congr 1
    unfold addendAt
    rw [dif_pos (show 32 * q + (j + 1) < N from h)]
    rfl

variable (m : (ℓ : Loc nD τ sig) → Buf (Elt Ideal) ℓ)

/-- Table 0 after point `n`, and the terms point `n` contributes to it. -/
def tbl0 (c : Dev nD) (n : ℕ) (h : n < cfg0.N) : Vec Ideal S16x128 .f32 := (outsAt0 m c n h).2.2.2.1
def w0 (c : Dev nD) (n : ℕ) (h : n < cfg0.N) : BitVec 32 → FVec Ideal S4096x128 .f32 := fun b => wP b (iblk m c 0 ⟨n, h⟩)

theorem tbl0_reset (c : Dev nD) (n : ℕ) (h : n < cfg0.N) (h0 : n % 32 = 0) : tbl0 m c n h = step (w0 m c n h) zeroT := by
  have h1 : ¬n % 32 = 31 := by omega
  have e := outsAt0_A m c ⟨n, h⟩ h0 h1
  unfold tbl0
  rw [show outsAt0 m c n h = _ from e]
  exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩)

theorem tbl0_step (c : Dev nD) (n : ℕ) (h : n + 1 < cfg0.N) (h0 : ¬(n + 1) % 32 = 0) :
    tbl0 m c (n + 1) h = step (w0 m c (n + 1) h) (tbl0 m c n (Nat.lt_of_succ_lt h)) := by
  unfold tbl0
  by_cases h1 : (n + 1) % 32 = 31
  · have e := outsAt0_C m c ⟨n + 1, h⟩ h0 h1
    rw [show outsAt0 m c (n + 1) h = _ from e]
    exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2
  · have e := outsAt0_B m c ⟨n + 1, h⟩ h0 h1
    rw [show outsAt0 m c (n + 1) h = _ from e]
    exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2

/-- Table 0 after point `j` of run `q`: the sum of the run's addends so far. -/
theorem tbl0_closed (c : Dev nD) (q j : ℕ) (hj : j < 32) (h : 32 * q + j < cfg0.N) (y : S16x128.Idx) :
    tbl0 m c (32 * q + j) h y = ∑ s ∈ Finset.range (j + 1), addendAt cfg0.N (w0 m c) (32 * q + s) y :=
  closed_of cfg0.N (tbl0 m c) (w0 m c) (tbl0_reset m c) (tbl0_step m c) q j hj h y

set_option maxHeartbeats 4000000 in
/-- The output block of table 0 at the last point of a run: the table, as a one-table stack. -/
theorem out0_last (c : Dev nD) (t : Fin cfg0.N) (h1 : t.val % 32 = 31) :
    (outsAt0 m c t.val t.isLt).1 = shapeCast S1x16x128 (tbl0 m c t.val t.isLt) shapeCasts_S16x128_S1x16x128 := by
  have h0 : ¬t.val % 32 = 0 := by omega
  have hpos : 0 < t.val := by omega
  have e := outsAt0_C m c t h0 h1
  have hs : tbl0 m c t.val t.isLt = step (w0 m c t.val t.isLt)
      (outsAt0 m c (t.val - 1) (Nat.lt_of_le_of_lt (Nat.sub_le _ _) t.isLt)).2.2.2.1 := by
    unfold tbl0
    rw [e]
    exact sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  rw [hs, e]
  exact out_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Table 1 after point `n`, and the terms point `n` contributes to it. -/
def tbl1 (c : Dev nD) (n : ℕ) (h : n < cfg0.N) : Vec Ideal S16x128 .f32 := (outsAt0 m c n h).2.2.2.2.1
def w1 (c : Dev nD) (n : ℕ) (h : n < cfg0.N) : BitVec 32 → FVec Ideal S4096x128 .f32 := fun b => wT b (iblk m c 0 ⟨n, h⟩) (iblk m c 1 ⟨n, h⟩)

theorem tbl1_reset (c : Dev nD) (n : ℕ) (h : n < cfg0.N) (h0 : n % 32 = 0) : tbl1 m c n h = step (w1 m c n h) zeroT := by
  have h1 : ¬n % 32 = 31 := by omega
  have e := outsAt0_A m c ⟨n, h⟩ h0 h1
  unfold tbl1
  rw [show outsAt0 m c n h = _ from e]
  exact sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩)

theorem tbl1_step (c : Dev nD) (n : ℕ) (h : n + 1 < cfg0.N) (h0 : ¬(n + 1) % 32 = 0) :
    tbl1 m c (n + 1) h = step (w1 m c (n + 1) h) (tbl1 m c n (Nat.lt_of_succ_lt h)) := by
  unfold tbl1
  by_cases h1 : (n + 1) % 32 = 31
  · have e := outsAt0_C m c ⟨n + 1, h⟩ h0 h1
    rw [show outsAt0 m c (n + 1) h = _ from e]
    exact sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2
  · have e := outsAt0_B m c ⟨n + 1, h⟩ h0 h1
    rw [show outsAt0 m c (n + 1) h = _ from e]
    exact sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2

/-- Table 1 after point `j` of run `q`: the sum of the run's addends so far. -/
theorem tbl1_closed (c : Dev nD) (q j : ℕ) (hj : j < 32) (h : 32 * q + j < cfg0.N) (y : S16x128.Idx) :
    tbl1 m c (32 * q + j) h y = ∑ s ∈ Finset.range (j + 1), addendAt cfg0.N (w1 m c) (32 * q + s) y :=
  closed_of cfg0.N (tbl1 m c) (w1 m c) (tbl1_reset m c) (tbl1_step m c) q j hj h y

set_option maxHeartbeats 4000000 in
/-- The output block of table 1 at the last point of a run: the table, as a one-table stack. -/
theorem out1_last (c : Dev nD) (t : Fin cfg0.N) (h1 : t.val % 32 = 31) :
    (outsAt0 m c t.val t.isLt).2.1 = shapeCast S1x16x128 (tbl1 m c t.val t.isLt) shapeCasts_S16x128_S1x16x128 := by
  have h0 : ¬t.val % 32 = 0 := by omega
  have hpos : 0 < t.val := by omega
  have e := outsAt0_C m c t h0 h1
  have hs : tbl1 m c t.val t.isLt = step (w1 m c t.val t.isLt)
      (outsAt0 m c (t.val - 1) (Nat.lt_of_le_of_lt (Nat.sub_le _ _) t.isLt)).2.2.2.2.1 := by
    unfold tbl1
    rw [e]
    exact sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  rw [hs, e]
  exact out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Table 2 after point `n`, and the terms point `n` contributes to it. -/
def tbl2 (c : Dev nD) (n : ℕ) (h : n < cfg0.N) : Vec Ideal S16x128 .f32 := (outsAt0 m c n h).2.2.2.2.2
def w2 (c : Dev nD) (n : ℕ) (h : n < cfg0.N) : BitVec 32 → FVec Ideal S4096x128 .f32 := fun b => maskV b (iblk m c 0 ⟨n, h⟩)

theorem tbl2_reset (c : Dev nD) (n : ℕ) (h : n < cfg0.N) (h0 : n % 32 = 0) : tbl2 m c n h = step (w2 m c n h) zeroT := by
  have h1 : ¬n % 32 = 31 := by omega
  have e := outsAt0_A m c ⟨n, h⟩ h0 h1
  unfold tbl2
  rw [show outsAt0 m c n h = _ from e]
  exact sout_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) ((hcond0_0 ⟨n, h⟩).mpr h0) (fun hh => h1 ((hcond0_1 ⟨n, h⟩).mp hh)) (iblk m c 0 ⟨n, h⟩) (iblk m c 1 ⟨n, h⟩)

theorem tbl2_step (c : Dev nD) (n : ℕ) (h : n + 1 < cfg0.N) (h0 : ¬(n + 1) % 32 = 0) :
    tbl2 m c (n + 1) h = step (w2 m c (n + 1) h) (tbl2 m c n (Nat.lt_of_succ_lt h)) := by
  unfold tbl2
  by_cases h1 : (n + 1) % 32 = 31
  · have e := outsAt0_C m c ⟨n + 1, h⟩ h0 h1
    rw [show outsAt0 m c (n + 1) h = _ from e]
    exact sout_C_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2
  · have e := outsAt0_B m c ⟨n + 1, h⟩ h0 h1
    rw [show outsAt0 m c (n + 1) h = _ from e]
    exact sout_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩)
      (outsAt0 m c n (Nat.lt_of_succ_lt h)).2.2.2.1 (outsAt0 m c n (Nat.lt_of_succ_lt h)).2.2.2.2.1 (outsAt0 m c n (Nat.lt_of_succ_lt h)).2.2.2.2.2

/-- Table 2 after point `j` of run `q`: the sum of the run's addends so far. -/
theorem tbl2_closed (c : Dev nD) (q j : ℕ) (hj : j < 32) (h : 32 * q + j < cfg0.N) (y : S16x128.Idx) :
    tbl2 m c (32 * q + j) h y = ∑ s ∈ Finset.range (j + 1), addendAt cfg0.N (w2 m c) (32 * q + s) y :=
  closed_of cfg0.N (tbl2 m c) (w2 m c) (tbl2_reset m c) (tbl2_step m c) q j hj h y

set_option maxHeartbeats 4000000 in
/-- The output block of table 2 at the last point of a run: the table, as a one-table stack. -/
theorem out2_last (c : Dev nD) (t : Fin cfg0.N) (h1 : t.val % 32 = 31) :
    (outsAt0 m c t.val t.isLt).2.2.1 = shapeCast S1x16x128 (tbl2 m c t.val t.isLt) shapeCasts_S16x128_S1x16x128 := by
  have h0 : ¬t.val % 32 = 0 := by omega
  have hpos : 0 < t.val := by omega
  have e := outsAt0_C m c t h0 h1
  have hs : tbl2 m c t.val t.isLt = step (w2 m c t.val t.isLt)
      (outsAt0 m c (t.val - 1) (Nat.lt_of_le_of_lt (Nat.sub_le _ _) t.isLt)).2.2.2.2.2 := by
    unfold tbl2
    rw [e]
    exact sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  rw [hs, e]
  exact out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.Ece.Accum

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Terms.lean ====
/-
  From the tables of running lane sums to the output arrays.

  The weight of bin `b` at an entry is 1 when the entry's bin is `b` and 0 otherwise, so a weighted term is the term
  itself on the bin's entries and zero elsewhere.  Row `r`, lane `l` of the block of grid point `t` is row
  `4096 · (t mod 32) + r`, lane `l` of core `t / 32` in the `[2, 131072, 128]` arrangement of the samples; so the sum over
  a core's 32 points of the column sums of their blocks is the sum over all 131072 rows of that core and lane.
-/
import proofs.«160154_j2207613190488_2_alg».proof.Proof.BodyLib
import proofs.«160154_j2207613190488_2_alg».proof.Proof.LibBlockSum

set_option maxRecDepth 16384

noncomputable section

open Idealize.ShloMosaic Idealize.ShloMosaic.TcCoe Idealize.ShloMosaic.Tactic Idealize.ShloMosaic.ValueIdx
open Idealize.SL Idealize.SL.Sem
open Cert.KernelIdeal Cert.KernelIdeal.Gen
open Cert.Ece Cert.Ece.Body

namespace Cert.Ece.Terms

/-- The weight of bin `b`: one on the bin's logits, zero on the others. -/
theorem inBin_eq (b : BitVec 32) (x : EReal) : inBin b x = if binOf x = b then 1 else 0 := by
  unfold inBin
  show (((BitVec.setWidth 32 (IntOp.cmpi .eq (binOf x) b)).toInt : ℝ) : EReal) = _
  unfold IntOp.cmpi
  by_cases h : binOf x = b
  · rw [if_pos h, h]
    simp
  · rw [if_neg h]
    have : (binOf x == b) = false := by simpa using h
    simp [this]

/-- A weighted term is the term on the bin's logits and zero elsewhere. -/
theorem inBin_mul (b : BitVec 32) (x v : EReal) : inBin b x * v = if binOf x = b then v else 0 := by
  rw [inBin_eq]
  by_cases h : binOf x = b
  · rw [if_pos h, if_pos h, one_mul]
  · rw [if_neg h, if_neg h, zero_mul]

/-- An entry of a block held as one stack of 4096 × 128. -/
theorem drop_unit {α : Type} (x0 : S1x4096x128.Idx → α) (r : Fin 4096) (l : Fin 128) :
    shapeCast S4096x128 x0 shapeCasts_S1x4096x128_S4096x128 (ix2 r l) = x0 (ix3 (0 : Fin 1) r l) := by
  refine shapeCast_apply x0 _ (ix2 r l) (ix3 (0 : Fin 1) r l) ?_
  rw [Shape.rowMajor_val_three, Shape.rowMajor_val_two]
  show (0 * 4096 + r.val) * 128 + l.val = r.val * 128 + l.val
  omega

/-- The block's confidences, bins and labels at an entry. -/
theorem pay8_apply (x0 : Vec Ideal S1x4096x128 .f32) (r : Fin 4096) (l : Fin 128) :
    k0_pay8 (F := Ideal) x0 (ix2 r l) = prob (x0 (ix3 (0 : Fin 1) r l)) :=
  congrArg Ideal.logistic (drop_unit x0 r l)
theorem pay10_apply (x0 : Vec Ideal S1x4096x128 .f32) (r : Fin 4096) (l : Fin 128) :
    k0_pay10 (F := Ideal) x0 (ix2 r l) = binOf (x0 (ix3 (0 : Fin 1) r l)) :=
  congrArg binOf (drop_unit x0 r l)
theorem pay9_apply (x1 : Vec Ideal S1x4096x128 .i32) (r : Fin 4096) (l : Fin 128) :
    k0_pay9 (F := Ideal) x1 (ix2 r l) = label (x1 (ix3 (0 : Fin 1) r l)) :=
  congrArg label (drop_unit x1 r l)

theorem maskV_apply (b : BitVec 32) (x0 : Vec Ideal S1x4096x128 .f32) (r : Fin 4096) (l : Fin 128) :
    maskV b x0 (ix2 r l) = inBin b (x0 (ix3 (0 : Fin 1) r l)) := by
  show FloatOps.sitofp (F := Ideal) .f32 ((IntOp.cmpi .eq (k0_pay10 (F := Ideal) x0 (ix2 r l)) b).setWidth 32) = _
  rw [pay10_apply]
  rfl

theorem wP_apply (b : BitVec 32) (x0 : Vec Ideal S1x4096x128 .f32) (r : Fin 4096) (l : Fin 128) :
    wP b x0 (ix2 r l) = if binOf (x0 (ix3 (0 : Fin 1) r l)) = b then prob (x0 (ix3 (0 : Fin 1) r l)) else 0 := by
  show maskV b x0 (ix2 r l) * k0_pay8 (F := Ideal) x0 (ix2 r l) = _
  rw [maskV_apply, pay8_apply, inBin_mul]

theorem wT_apply (b : BitVec 32) (x0 : Vec Ideal S1x4096x128 .f32) (x1 : Vec Ideal S1x4096x128 .i32) (r : Fin 4096) (l : Fin 128) :
    wT b x0 x1 (ix2 r l) = if binOf (x0 (ix3 (0 : Fin 1) r l)) = b then label (x1 (ix3 (0 : Fin 1) r l)) else 0 := by
  show maskV b x0 (ix2 r l) * k0_pay9 (F := Ideal) x1 (ix2 r l) = _
  rw [maskV_apply, pay9_apply, inBin_mul]

theorem wC_apply (b : BitVec 32) (x0 : Vec Ideal S1x4096x128 .f32) (r : Fin 4096) (l : Fin 128) :
    maskV b x0 (ix2 r l) = if binOf (x0 (ix3 (0 : Fin 1) r l)) = b then 1 else 0 := by
  rw [maskV_apply, inBin_eq]

/-- Where the windows' blocks sit, decided over the grid: the two inputs' block of point `t` is block
    `(t / 32, t mod 32, 0)`, the three outputs' block is `(t / 32, 0, 0)`. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

variable (m : (ℓ : Loc nD τ sig) → Buf (Elt Ideal) ℓ)

/-- An entry of the logits' block at point `t`, in the array the region finds. -/
theorem iblk0_apply (c : Dev nD) (t : Fin cfg0.N) (r : Fin 4096) (l : Fin 128) (k : S2x131072x128.Idx)
    (hk0 : (k 0).val = t.val / 32) (hk1 : (k 1).val = 4096 * (t.val % 32) + r.val) (hk2 : (k 2).val = l.val) :
    (iblk m c 0 t : Vec Ideal S1x4096x128 .f32) (ix3 (0 : Fin 1) r l) = (V m c main_v0 : S2x131072x128.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = (k 0).val; rw [e0, hk0]; omega
  | ⟨1, _⟩ => show win0_0.index t (1 : Fin 3) * 4096 + 1 * r.val = (k 1).val; rw [e1, hk1]; omega
  | ⟨2, _⟩ => show win0_0.index t (2 : Fin 3) * 128 + 1 * l.val = (k 2).val; rw [e2, hk2]; omega

/-- The same for the labels' block. -/
theorem iblk1_apply (c : Dev nD) (t : Fin cfg0.N) (r : Fin 4096) (l : Fin 128) (k : S2x131072x128.Idx)
    (hk0 : (k 0).val = t.val / 32) (hk1 : (k 1).val = 4096 * (t.val % 32) + r.val) (hk2 : (k 2).val = l.val) :
    (iblk m c 1 t : Vec Ideal S1x4096x128 .i32) (ix3 (0 : Fin 1) r l) = (V m c main_v1 : S2x131072x128.Idx → BitVec 32) k := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = (k 0).val; rw [e0, hk0]; omega
  | ⟨1, _⟩ => show win0_1.index t (1 : Fin 3) * 4096 + 1 * r.val = (k 1).val; rw [e1, hk1]; omega
  | ⟨2, _⟩ => show win0_1.index t (2 : Fin 3) * 128 + 1 * l.val = (k 2).val; rw [e2, hk2]; omega

end Cert.Ece.Terms

end
-- ==== Proof.LibLaneSums.lean ====
/-
  The sliced lane-and-core sum of a table of lane sums is the per-bin sum over all samples.

  A table of lane sums holds, per core `c`, bin `b` and lane `l`, the sum over the rows `R` of the
  `[2, 131072, 128]` arrangement of the masked values.  Summing the table over cores and lanes gives, at
  bin `b < 15`, the sum over every `(c, R, l)` of the masked value; the row-major bijection between the
  `[2, 131072, 128]` indices and the flat indices turns that into the sum over all samples.  Only
  re-indexings of finite sums in a commutative monoid are used: no finiteness of the values is needed.
-/
import proofs.«160154_j2207613190488_2_alg».proof.Proof.Spec
import Idealize.ShloMosaic.PureOps.Reduce
import Idealize.ShloMosaic.PureOps.Ideal.Laws
import Idealize.ShloMosaic.Lib.IdealHost

noncomputable section

namespace Cert.Ece.LaneSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The masked value of bin `n` at a sample of the `[2, 131072, 128]` arrangement. -/
def term (val X : S3.Idx → EReal) (n : Nat) (p : S3.Idx) : EReal :=
  if binOf (X p) = BitVec.ofNat 32 n then val p else 0

/-- A row `b < 15` of the table of lane sums, read at core `c` and lane `l`. -/
theorem laneSums_apply (val X : S3.Idx → EReal) (c : Fin 2) (b : Fin 16) (l : Fin 128) (hb : b.val < 15) :
    laneSums val X (ix3 c b l) = ∑ R : Fin 131072, term val X b.val (ix3 c R l) := by
  unfold laneSums term
  exact if_pos hb

/-- A sum over `Fin N` of a term masked by "the coordinate is `n`" is the term at `n`. -/
theorem sum_fin_ite_val {M : Type*} [AddCommMonoid M] {N : Nat} (n : Nat) (hn : n < N) (F : Fin N → M) :
    ∑ b : Fin N, (if b.val = n then F b else 0) = F ⟨n, hn⟩ := by
  rw [Finset.sum_eq_single (⟨n, hn⟩ : Fin N)]
  · exact if_pos rfl
  · intro b _ hb
    exact if_neg fun h => hb (Fin.ext h)
  · intro h
    exact absurd (Finset.mem_univ _) h

/-- Under the sum over cores and lanes, an entry of the table reduces to the bin of its middle coordinate. -/
theorem drop_eq_iff (hred : SOut.ReducesTo [0, 2] ⟨1, ![16]⟩) (y : SOut.Idx) (j : (⟨1, ![16]⟩ : Shape).Idx) :
    hred.drop y = j ↔ (y 1).val = (j 0).val := by
  simp [funext_iff, Fin.ext_iff, Fin.forall_fin_one, hred.drop_apply_val_of_eq y 0 1]

/-- One core's share: the entries of the table that reduce to bin `n < 15`, summed over the lanes, are the masked
    values of bin `n` summed over that core's rows and lanes. -/
theorem core_sum (V X : S3.Idx → EReal) (hred : SOut.ReducesTo [0, 2] ⟨1, ![16]⟩) (c : Fin 2) (n : Nat) (hn : n < 15)
    (j : (⟨1, ![16]⟩ : Shape).Idx) (hj : (j 0).val = n) :
    ∑ b : Fin 16, ∑ l : Fin 128, (if hred.drop (ix3 c b l) = j then laneSums V X (ix3 c b l) else 0)
      = ∑ R : Fin 131072, ∑ l : Fin 128, term V X n (ix3 c R l) := by
  have hcond : ∀ (b : Fin 16) (l : Fin 128), hred.drop (ix3 c b l) = j ↔ b.val = n := fun b l =>
    (drop_eq_iff hred _ j).trans (by rw [hj])
  calc _ = ∑ l : Fin 128, ∑ b : Fin 16, (if b.val = n then laneSums V X (ix3 c b l) else 0) := by
        rw [Finset.sum_comm]
        exact Finset.sum_congr rfl fun l _ => Finset.sum_congr rfl fun b _ => if_congr (hcond b l) rfl rfl
    _ = ∑ l : Fin 128, laneSums V X (ix3 c ⟨n, by omega⟩ l) :=
        Finset.sum_congr rfl fun l _ => sum_fin_ite_val n (by omega) fun b => laneSums V X (ix3 c b l)
    _ = ∑ l : Fin 128, ∑ R : Fin 131072, term V X n (ix3 c R l) :=
        Finset.sum_congr rfl fun l _ => laneSums_apply V X c ⟨n, by omega⟩ l hn
    _ = _ := Finset.sum_comm

/-- The table of lane sums of the reshaped samples, summed over cores and lanes from zero and cut to the fifteen bins,
    is the per-bin sum over all samples. -/
theorem slice_reduce_laneSums (val lg : SN.Idx → EReal) (hc : SN.ShapeCasts S3)
    (hred : SOut.ReducesTo [0, 2] ⟨1, ![16]⟩) (h0 : 0 < S0.numel)
    (hsl : (⟨1, ![16]⟩ : Shape).Slices ![0] SB) :
    extractStridedSlice SB ![0]
      (Host.reduceAdd (F := Ideal) (φ := .f32) (laneSums (shapeCast S3 val hc) (shapeCast S3 lg hc))
        (constant (F := Ideal) S0 .f32 0x00000000#32) hred h0) hsl
      = binSum val lg := by
  funext i
  have hi : (i 0).val < 15 := (i 0).isLt
  -- the flat sum, carried to the `[2, 131072, 128]` arrangement by the row-major bijection and split by coordinates
  have hflat : binSum val lg i = ∑ c : Fin 2, ∑ R : Fin 131072, ∑ l : Fin 128,
      term (shapeCast S3 val hc) (shapeCast S3 lg hc) (i 0).val (ix3 c R l) := by
    rw [← sum_idx3 (fun p => term (shapeCast S3 val hc) (shapeCast S3 lg hc) (i 0).val p)]
    exact (Equiv.sum_comp (Shape.reshapeEquiv hc)
      (fun k => if binOf (lg k) = BitVec.ofNat 32 (i 0).val then val k else 0)).symm
  rw [hflat]
  unfold extractStridedSlice
  rw [hostReduceAdd_apply]
  unfold Ideal.hostReduceAdd
  rw [constant_apply, Ideal.ofBits_zero_f32, zero_add, Finset.sum_filter, sum_idx3]
  exact Finset.sum_congr rfl fun c _ => core_sum _ _ hred c (i 0).val hi _ (Nat.zero_add _)

end Cert.Ece.LaneSums

end
-- ==== Proof.Final.lean ====
/-
  The three output arrays after the run.

  At the last point of core `q`'s run a table holds, in lane `l` of row `b`, the sum over the core's 32 points of the
  column sums of their blocks' terms of bin `b`: the sum over all 131072 rows of core `q` and lane `l` (`laneSums`).  That
  point writes the table back as block `(q, 0, 0)` of its `[2, 16, 128]` array; the two cores' blocks fill the array.
-/
import proofs.«160154_j2207613190488_2_alg».proof.Proof.Accum
import proofs.«160154_j2207613190488_2_alg».proof.Proof.Terms
import proofs.«160154_j2207613190488_2_alg».proof.Proof.LibLaneSums

set_option maxRecDepth 16384

noncomputable section

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Cert.Ece Cert.Ece.Body Cert.Ece.Accum Cert.Ece.Terms

namespace Cert.Ece.Final

/-- Regrouping: the sum over a core's 32 points of sums over their 4096 rows is the sum over the core's 131072 rows. -/
theorem sum_runs (q : Fin 2) (l : Fin 128) (g : S3.Idx → EReal) (A : ℕ → EReal)
    (hA : ∀ s : Fin 32, A s.val = ∑ e : Fin 4096, g (ix3 q (⟨e.val + 4096 * s.val, by have := e.isLt; have := s.isLt; omega⟩ : Fin 131072) l)) :
    ∑ s ∈ Finset.range 32, A s = ∑ R : Fin 131072, g (ix3 q R l) := by
  have h131 : 32 * 4096 = 131072 := by norm_num
  rw [Finset.sum_range, ← Equiv.sum_comp (finCongr h131) (fun R : Fin 131072 => g (ix3 q R l)),
    Cert.Lib.BlockSum.sum_fin_mul_fin 32 4096]
  refine Finset.sum_congr rfl fun s _ => ?_
  rw [hA s]
  refine Finset.sum_congr rfl fun e _ => ?_
  exact congrArg (fun R : Fin 131072 => g (ix3 q R l)) (Fin.ext (Cert.Lib.BlockSum.place_val 32 4096 s e).symm)

variable (m : (ℓ : Loc nD τ sig) → Buf (Elt Ideal) ℓ)

/-- The logits and the labels in their `[2, 131072, 128]` arrangement, as the region finds them. -/
def X3 (c : Dev nD) : S3.Idx → EReal := V m c main_v0
def T3 (c : Dev nD) : S3.Idx → BitVec 32 := V m c main_v1

/-- A table whose points' terms are, entry by entry, `val` on the bin's samples and zero elsewhere holds, summed over
    the 32 points of core `q`'s run, the lane sums of `val`. -/
theorem last_of (X : S3.Idx → EReal) (w : (n : ℕ) → n < cfg0.N → BitVec 32 → FVec Ideal S4096x128 .f32) (val : S3.Idx → EReal)
    (hw : ∀ (n : ℕ) (h : n < cfg0.N) (b : BitVec 32) (e : Fin 4096) (l : Fin 128) (k : S3.Idx),
      (k 0).val = n / 32 → (k 1).val = 4096 * (n % 32) + e.val → (k 2).val = l.val →
      w n h b (ix2 e l) = if binOf (X k) = b then val k else 0)
    (q : Fin 2) (b : Fin 16) (l : Fin 128) :
    ∑ s ∈ Finset.range 32, addendAt cfg0.N w (32 * q.val + s) (ix2 b l) = laneSums val X (ix3 q b l) := by
  have hN : cfg0.N = 64 := N_0
  have hq : q.val < 2 := q.isLt
  by_cases hb : b.val < 15
  · rw [LaneSums.laneSums_apply val X q b l hb]
    refine sum_runs q l (LaneSums.term val X b.val) (fun s => addendAt cfg0.N w (32 * q.val + s) (ix2 b l)) fun s => ?_
    have hs : s.val < 32 := s.isLt
    have hlt : 32 * q.val + s.val < cfg0.N := by omega
    show addendAt cfg0.N w (32 * q.val + s.val) (ix2 b l) = _
    unfold addendAt
    rw [dif_pos hlt]
    unfold addend
    rw [if_pos (show ((ix2 b l : S16x128.Idx) 0).val < 15 from hb)]
    refine Finset.sum_congr rfl fun e _ => ?_
    unfold LaneSums.term
    exact hw _ hlt _ e l _ (by show q.val = (32 * q.val + s.val) / 32; omega)
      (by show e.val + 4096 * s.val = 4096 * ((32 * q.val + s.val) % 32) + e.val; omega) rfl
  · have hr : laneSums val X (ix3 q b l) = 0 := by
      unfold laneSums
      exact if_neg hb
    rw [hr]
    refine Finset.sum_eq_zero fun s _ => ?_
    unfold addendAt
    by_cases hlt : 32 * q.val + s < cfg0.N
    · rw [dif_pos hlt]
      unfold addend
      exact if_neg hb
    · rw [dif_neg hlt]

/-! ## Output array 0 -/

/-- What the array ends holding. -/
def G2 (c : Dev nD) : SOut.Idx → EReal := laneSums (fun p => prob (X3 m c p)) (X3 m c)

/-- Table 0 at the last point of a core's run. -/
theorem tbl0_last (c : Dev nD) (t : Fin cfg0.N) (h31 : t.val % 32 = 31) (b : Fin 16) (l : Fin 128) :
    tbl0 m c t.val t.isLt (ix2 b l) = G2 m c (ix3 (⟨t.val / 32, by have := t.isLt; have hN : cfg0.N = 64 := N_0; omega⟩ : Fin 2) b l) := by
  have hN : cfg0.N = 64 := N_0
  have ht := t.isLt
  have hlt : 32 * (t.val / 32) + 31 < cfg0.N := by omega
  have same : ∀ (u : ℕ) (hu : u < cfg0.N), u = t.val → tbl0 m c u hu = tbl0 m c t.val t.isLt := fun u hu e => by subst e; rfl
  rw [← same _ hlt (by omega), tbl0_closed m c (t.val / 32) 31 (by norm_num) hlt (ix2 b l)]
  unfold G2
  refine last_of (X3 m c) (w0 m c) (fun p => prob (X3 m c p)) ?_ ⟨t.val / 32, by omega⟩ b l
  intro n h b e l k hk0 hk1 hk2
  show wP b (iblk m c 0 ⟨n, h⟩) (ix2 e l) = _
  rw [wP_apply, iblk0_apply m c ⟨n, h⟩ e l k hk0 hk1 hk2]
  rfl

/-- An index of the array is in point `t`'s block iff each coordinate is in the block's range on its axis. -/
theorem mem_blk2 (t : Fin cfg0.N) (i : S2x16x128.Idx) :
    i ∈ ((cfg0.win 2).blk t).view.set ↔ ∀ a : Fin 3, win0_2.index t a * S1x16x128.size a ≤ (i a).val ∧ (i a).val < win0_2.index t a * S1x16x128.size a + S1x16x128.size a := by
  show i ∈ ((View.whole main_v2_0).slice (win0_2.rect t)).set ↔ _
  rw [View.set_slice_whole, Rect.mem_set_unit]
  exact Iff.rfl

/-- What a flushing point writes back is its block of `G2`. -/
theorem flushed2_eq (c : Dev nD) (t : Fin cfg0.N) (hf : (cfg0.win 2).flush t = true) :
    (dats m 0 c).flushed 2 t = ((cfg0.win 2).blk t).view.read (Elt Ideal) (G2 m c) := by
  have h31 := (flush0_2 t).mp hf
  have hN : cfg0.N = 64 := N_0
  have ht := t.isLt
  obtain ⟨-, -, -, -, -, -, e0, e1, e2, -⟩ := idx_facts t
  show (cfg0.win 2).cut (grid0.coords t) ((dats m 0 c).after 2 t) = _
  rw [after0_2, out0_last m c t h31]
  funext j
  rw [View.read_apply]
  show shapeCast S1x16x128 (tbl0 m c t.val t.isLt) shapeCasts_S16x128_S1x16x128 j = G2 m c (((cfg0.win 2).blk t).view.emb j)
  obtain ⟨p, b, l, rfl⟩ : ∃ (p : Fin 1) (b : Fin 16) (l : Fin 128), j = ix3 p b l := ⟨j 0, j 1, j 2, eq_ix3 j⟩
  have hcast : shapeCast S1x16x128 (tbl0 m c t.val t.isLt) shapeCasts_S16x128_S1x16x128 (ix3 p b l) = tbl0 m c t.val t.isLt (ix2 b l) := by
    refine shapeCast_apply _ _ (ix3 p b l) (ix2 b l) ?_
    rw [Shape.rowMajor_val_three, Shape.rowMajor_val_two]
    have hp : p.val = 0 := by have := p.isLt; omega
    show b.val * 128 + l.val = (p.val * 16 + b.val) * 128 + l.val
    rw [hp]; omega
  rw [hcast, tbl0_last m c t h31 b l]
  congr 1
  funext a
  apply Fin.ext
  have hp : p.val = 0 := by have := p.isLt; omega
  match a with
  | ⟨0, _⟩ => show t.val / 32 = win0_2.index t (0 : Fin 3) * 1 + 1 * p.val; rw [e0, hp]; omega
  | ⟨1, _⟩ => show b.val = win0_2.index t (1 : Fin 3) * 16 + 1 * b.val; rw [e1]; omega
  | ⟨2, _⟩ => show l.val = win0_2.index t (2 : Fin 3) * 128 + 1 * l.val; rw [e2]; omega

/-- The array after the run: the last point of each core's run covers that core's half. -/
theorem final2 (c : Dev nD) : ((dats m 0 c).arrAt 2 cfg0.N : SOut.Idx → EReal) = G2 m c :=
  (dats m 0 c).arrAt_eq_of_cover 2 (G2 m c) (flushed2_eq m c) fun i => by
    have hN : cfg0.N = 64 := N_0
    have hi0 : (i 0).val < 2 := (i 0).isLt
    have hi1 : (i 1).val < 16 := (i 1).isLt
    have hi2 : (i 2).val < 128 := (i 2).isLt
    refine ⟨⟨32 * (i 0).val + 31, by omega⟩, (flush0_2 _).mpr (by show (32 * (i 0).val + 31) % 32 = 31; omega), ?_⟩
    obtain ⟨-, -, -, -, -, -, e0, e1, e2, -⟩ := idx_facts (⟨32 * (i 0).val + 31, by omega⟩ : Fin cfg0.N)
    rw [mem_blk2]
    intro a
    match a with
    | ⟨0, _⟩ => show win0_2.index _ (0 : Fin 3) * 1 ≤ (i 0).val ∧ (i 0).val < win0_2.index _ (0 : Fin 3) * 1 + 1
                rw [e0]; show (32 * (i 0).val + 31) / 32 * 1 ≤ (i 0).val ∧ (i 0).val < (32 * (i 0).val + 31) / 32 * 1 + 1; omega
    | ⟨1, _⟩ => show win0_2.index _ (1 : Fin 3) * 16 ≤ (i 1).val ∧ (i 1).val < win0_2.index _ (1 : Fin 3) * 16 + 16
                rw [e1]; omega
    | ⟨2, _⟩ => show win0_2.index _ (2 : Fin 3) * 128 ≤ (i 2).val ∧ (i 2).val < win0_2.index _ (2 : Fin 3) * 128 + 128
                rw [e2]; omega

/-! ## Output array 1 -/

/-- What the array ends holding. -/
def G3 (c : Dev nD) : SOut.Idx → EReal := laneSums (fun p => label (T3 m c p)) (X3 m c)

/-- Table 1 at the last point of a core's run. -/
theorem tbl1_last (c : Dev nD) (t : Fin cfg0.N) (h31 : t.val % 32 = 31) (b : Fin 16) (l : Fin 128) :
    tbl1 m c t.val t.isLt (ix2 b l) = G3 m c (ix3 (⟨t.val / 32, by have := t.isLt; have hN : cfg0.N = 64 := N_0; omega⟩ : Fin 2) b l) := by
  have hN : cfg0.N = 64 := N_0
  have ht := t.isLt
  have hlt : 32 * (t.val / 32) + 31 < cfg0.N := by omega
  have same : ∀ (u : ℕ) (hu : u < cfg0.N), u = t.val → tbl1 m c u hu = tbl1 m c t.val t.isLt := fun u hu e => by subst e; rfl
  rw [← same _ hlt (by omega), tbl1_closed m c (t.val / 32) 31 (by norm_num) hlt (ix2 b l)]
  unfold G3
  refine last_of (X3 m c) (w1 m c) (fun p => label (T3 m c p)) ?_ ⟨t.val / 32, by omega⟩ b l
  intro n h b e l k hk0 hk1 hk2
  show wT b (iblk m c 0 ⟨n, h⟩) (iblk m c 1 ⟨n, h⟩) (ix2 e l) = _
  rw [wT_apply, iblk0_apply m c ⟨n, h⟩ e l k hk0 hk1 hk2, iblk1_apply m c ⟨n, h⟩ e l k hk0 hk1 hk2]
  rfl

/-- An index of the array is in point `t`'s block iff each coordinate is in the block's range on its axis. -/
theorem mem_blk3 (t : Fin cfg0.N) (i : S2x16x128.Idx) :
    i ∈ ((cfg0.win 3).blk t).view.set ↔ ∀ a : Fin 3, win0_3.index t a * S1x16x128.size a ≤ (i a).val ∧ (i a).val < win0_3.index t a * S1x16x128.size a + S1x16x128.size a := by
  show i ∈ ((View.whole main_v2_1).slice (win0_3.rect t)).set ↔ _
  rw [View.set_slice_whole, Rect.mem_set_unit]
  exact Iff.rfl

/-- What a flushing point writes back is its block of `G3`. -/
theorem flushed3_eq (c : Dev nD) (t : Fin cfg0.N) (hf : (cfg0.win 3).flush t = true) :
    (dats m 0 c).flushed 3 t = ((cfg0.win 3).blk t).view.read (Elt Ideal) (G3 m c) := by
  have h31 := (flush0_3 t).mp hf
  have hN : cfg0.N = 64 := N_0
  have ht := t.isLt
  obtain ⟨-, -, -, -, -, -, -, -, -, e0, e1, e2, -⟩ := idx_facts t
  show (cfg0.win 3).cut (grid0.coords t) ((dats m 0 c).after 3 t) = _
  rw [after0_3, out1_last m c t h31]
  funext j
  rw [View.read_apply]
  show shapeCast S1x16x128 (tbl1 m c t.val t.isLt) shapeCasts_S16x128_S1x16x128 j = G3 m c (((cfg0.win 3).blk t).view.emb j)
  obtain ⟨p, b, l, rfl⟩ : ∃ (p : Fin 1) (b : Fin 16) (l : Fin 128), j = ix3 p b l := ⟨j 0, j 1, j 2, eq_ix3 j⟩
  have hcast : shapeCast S1x16x128 (tbl1 m c t.val t.isLt) shapeCasts_S16x128_S1x16x128 (ix3 p b l) = tbl1 m c t.val t.isLt (ix2 b l) := by
    refine shapeCast_apply _ _ (ix3 p b l) (ix2 b l) ?_
    rw [Shape.rowMajor_val_three, Shape.rowMajor_val_two]
    have hp : p.val = 0 := by have := p.isLt; omega
    show b.val * 128 + l.val = (p.val * 16 + b.val) * 128 + l.val
    rw [hp]; omega
  rw [hcast, tbl1_last m c t h31 b l]
  congr 1
  funext a
  apply Fin.ext
  have hp : p.val = 0 := by have := p.isLt; omega
  match a with
  | ⟨0, _⟩ => show t.val / 32 = win0_3.index t (0 : Fin 3) * 1 + 1 * p.val; rw [e0, hp]; omega
  | ⟨1, _⟩ => show b.val = win0_3.index t (1 : Fin 3) * 16 + 1 * b.val; rw [e1]; omega
  | ⟨2, _⟩ => show l.val = win0_3.index t (2 : Fin 3) * 128 + 1 * l.val; rw [e2]; omega

/-- The array after the run: the last point of each core's run covers that core's half. -/
theorem final3 (c : Dev nD) : ((dats m 0 c).arrAt 3 cfg0.N : SOut.Idx → EReal) = G3 m c :=
  (dats m 0 c).arrAt_eq_of_cover 3 (G3 m c) (flushed3_eq m c) fun i => by
    have hN : cfg0.N = 64 := N_0
    have hi0 : (i 0).val < 2 := (i 0).isLt
    have hi1 : (i 1).val < 16 := (i 1).isLt
    have hi2 : (i 2).val < 128 := (i 2).isLt
    refine ⟨⟨32 * (i 0).val + 31, by omega⟩, (flush0_3 _).mpr (by show (32 * (i 0).val + 31) % 32 = 31; omega), ?_⟩
    obtain ⟨-, -, -, -, -, -, -, -, -, e0, e1, e2, -⟩ := idx_facts (⟨32 * (i 0).val + 31, by omega⟩ : Fin cfg0.N)
    rw [mem_blk3]
    intro a
    match a with
    | ⟨0, _⟩ => show win0_3.index _ (0 : Fin 3) * 1 ≤ (i 0).val ∧ (i 0).val < win0_3.index _ (0 : Fin 3) * 1 + 1
                rw [e0]; show (32 * (i 0).val + 31) / 32 * 1 ≤ (i 0).val ∧ (i 0).val < (32 * (i 0).val + 31) / 32 * 1 + 1; omega
    | ⟨1, _⟩ => show win0_3.index _ (1 : Fin 3) * 16 ≤ (i 1).val ∧ (i 1).val < win0_3.index _ (1 : Fin 3) * 16 + 16
                rw [e1]; omega
    | ⟨2, _⟩ => show win0_3.index _ (2 : Fin 3) * 128 ≤ (i 2).val ∧ (i 2).val < win0_3.index _ (2 : Fin 3) * 128 + 128
                rw [e2]; omega

/-! ## Output array 2 -/

/-- What the array ends holding. -/
def G4 (c : Dev nD) : SOut.Idx → EReal := laneSums (fun _ => (1 : EReal)) (X3 m c)

/-- Table 2 at the last point of a core's run. -/
theorem tbl2_last (c : Dev nD) (t : Fin cfg0.N) (h31 : t.val % 32 = 31) (b : Fin 16) (l : Fin 128) :
    tbl2 m c t.val t.isLt (ix2 b l) = G4 m c (ix3 (⟨t.val / 32, by have := t.isLt; have hN : cfg0.N = 64 := N_0; omega⟩ : Fin 2) b l) := by
  have hN : cfg0.N = 64 := N_0
  have ht := t.isLt
  have hlt : 32 * (t.val / 32) + 31 < cfg0.N := by omega
  have same : ∀ (u : ℕ) (hu : u < cfg0.N), u = t.val → tbl2 m c u hu = tbl2 m c t.val t.isLt := fun u hu e => by subst e; rfl
  rw [← same _ hlt (by omega), tbl2_closed m c (t.val / 32) 31 (by norm_num) hlt (ix2 b l)]
  unfold G4
  refine last_of (X3 m c) (w2 m c) (fun _ => (1 : EReal)) ?_ ⟨t.val / 32, by omega⟩ b l
  intro n h b e l k hk0 hk1 hk2
  show maskV b (iblk m c 0 ⟨n, h⟩) (ix2 e l) = _
  rw [wC_apply, iblk0_apply m c ⟨n, h⟩ e l k hk0 hk1 hk2]
  rfl

/-- An index of the array is in point `t`'s block iff each coordinate is in the block's range on its axis. -/
theorem mem_blk4 (t : Fin cfg0.N) (i : S2x16x128.Idx) :
    i ∈ ((cfg0.win 4).blk t).view.set ↔ ∀ a : Fin 3, win0_4.index t a * S1x16x128.size a ≤ (i a).val ∧ (i a).val < win0_4.index t a * S1x16x128.size a + S1x16x128.size a := by
  show i ∈ ((View.whole main_v2_2).slice (win0_4.rect t)).set ↔ _
  rw [View.set_slice_whole, Rect.mem_set_unit]
  exact Iff.rfl

/-- What a flushing point writes back is its block of `G4`. -/
theorem flushed4_eq (c : Dev nD) (t : Fin cfg0.N) (hf : (cfg0.win 4).flush t = true) :
    (dats m 0 c).flushed 4 t = ((cfg0.win 4).blk t).view.read (Elt Ideal) (G4 m c) := by
  have h31 := (flush0_4 t).mp hf
  have hN : cfg0.N = 64 := N_0
  have ht := t.isLt
  obtain ⟨-, -, -, -, -, -, -, -, -, -, -, -, e0, e1, e2⟩ := idx_facts t
  show (cfg0.win 4).cut (grid0.coords t) ((dats m 0 c).after 4 t) = _
  rw [after0_4, out2_last m c t h31]
  funext j
  rw [View.read_apply]
  show shapeCast S1x16x128 (tbl2 m c t.val t.isLt) shapeCasts_S16x128_S1x16x128 j = G4 m c (((cfg0.win 4).blk t).view.emb j)
  obtain ⟨p, b, l, rfl⟩ : ∃ (p : Fin 1) (b : Fin 16) (l : Fin 128), j = ix3 p b l := ⟨j 0, j 1, j 2, eq_ix3 j⟩
  have hcast : shapeCast S1x16x128 (tbl2 m c t.val t.isLt) shapeCasts_S16x128_S1x16x128 (ix3 p b l) = tbl2 m c t.val t.isLt (ix2 b l) := by
    refine shapeCast_apply _ _ (ix3 p b l) (ix2 b l) ?_
    rw [Shape.rowMajor_val_three, Shape.rowMajor_val_two]
    have hp : p.val = 0 := by have := p.isLt; omega
    show b.val * 128 + l.val = (p.val * 16 + b.val) * 128 + l.val
    rw [hp]; omega
  rw [hcast, tbl2_last m c t h31 b l]
  congr 1
  funext a
  apply Fin.ext
  have hp : p.val = 0 := by have := p.isLt; omega
  match a with
  | ⟨0, _⟩ => show t.val / 32 = win0_4.index t (0 : Fin 3) * 1 + 1 * p.val; rw [e0, hp]; omega
  | ⟨1, _⟩ => show b.val = win0_4.index t (1 : Fin 3) * 16 + 1 * b.val; rw [e1]; omega
  | ⟨2, _⟩ => show l.val = win0_4.index t (2 : Fin 3) * 128 + 1 * l.val; rw [e2]; omega

/-- The array after the run: the last point of each core's run covers that core's half. -/
theorem final4 (c : Dev nD) : ((dats m 0 c).arrAt 4 cfg0.N : SOut.Idx → EReal) = G4 m c :=
  (dats m 0 c).arrAt_eq_of_cover 4 (G4 m c) (flushed4_eq m c) fun i => by
    have hN : cfg0.N = 64 := N_0
    have hi0 : (i 0).val < 2 := (i 0).isLt
    have hi1 : (i 1).val < 16 := (i 1).isLt
    have hi2 : (i 2).val < 128 := (i 2).isLt
    refine ⟨⟨32 * (i 0).val + 31, by omega⟩, (flush0_4 _).mpr (by show (32 * (i 0).val + 31) % 32 = 31; omega), ?_⟩
    obtain ⟨-, -, -, -, -, -, -, -, -, -, -, -, e0, e1, e2⟩ := idx_facts (⟨32 * (i 0).val + 31, by omega⟩ : Fin cfg0.N)
    rw [mem_blk4]
    intro a
    match a with
    | ⟨0, _⟩ => show win0_4.index _ (0 : Fin 3) * 1 ≤ (i 0).val ∧ (i 0).val < win0_4.index _ (0 : Fin 3) * 1 + 1
                rw [e0]; show (32 * (i 0).val + 31) / 32 * 1 ≤ (i 0).val ∧ (i 0).val < (32 * (i 0).val + 31) / 32 * 1 + 1; omega
    | ⟨1, _⟩ => show win0_4.index _ (1 : Fin 3) * 16 ≤ (i 1).val ∧ (i 1).val < win0_4.index _ (1 : Fin 3) * 16 + 16
                rw [e1]; omega
    | ⟨2, _⟩ => show win0_4.index _ (2 : Fin 3) * 128 ≤ (i 2).val ∧ (i 2).val < win0_4.index _ (2 : Fin 3) * 128 + 128
                rw [e2]; omega

end Cert.Ece.Final

end
-- ==== Proof.HostSide.lean ====
/-
  The host operations around the tiled region, read at the ideal values.

  Before the region two reshapes arrange the flat logits and labels as `[2, 131072, 128]` arrays.  After it
  each of the three `[2, 16, 128]` tables is summed over cores and lanes from zero and cut to the fifteen bins,
  and the three per-bin vectors go through the same closing arithmetic as the reference's.
-/
import proofs.«160154_j2207613190488_2_alg».proof.Proof.Gen.KernelIdeal.Frame
import proofs.«160154_j2207613190488_2_alg».proof.Proof.Spec
import proofs.«160154_j2207613190488_2_alg».proof.Proof.LibLaneSums

noncomputable section

namespace Cert.Ece.HostSide

open Idealize.ShloMosaic Idealize.ShloMosaic.TcCoe Idealize.ShloMosaic.ValueIdx
open Cert.KernelIdeal Cert.KernelIdeal.Gen

variable (m : (ℓ : Loc nD τ sig) → Buf (Elt Ideal) ℓ)

/-- The region's first input array is the flat logits in the `[2, 131072, 128]` arrangement. -/
theorem V_main_v0 (c : Dev nD) :
    (Gen.V m c main_v0 : S3.Idx → EReal)
      = shapeCast S3 (m ((c.tc : Thread nD τ).loc main_arg0)) shapeCasts_S33554432_S2x131072x128 := by
  show StableHlo.after hostOps0 (fun b => m (c, b)) (Proc.devRef .tc main_v0) = _
  after_results
  rfl

/-- The region's second input array is the flat labels in the `[2, 131072, 128]` arrangement. -/
theorem V_main_v1 (c : Dev nD) :
    (Gen.V m c main_v1 : S3.Idx → BitVec 32)
      = shapeCast S3 (m ((c.tc : Thread nD τ).loc main_arg1)) shapeCasts_S33554432_S2x131072x128 := by
  show StableHlo.after hostOps0 (fun b => m (c, b)) (Proc.devRef .tc main_v1) = _
  after_results
  rfl

/-- One `[2, 16, 128]` table summed over cores and lanes from zero and cut to the fifteen bins. -/
def sl (A : FVec Ideal S2x16x128 .f32) : FVec Ideal S15 .f32 :=
  extractStridedSlice S15 ![0]
    (Host.reduceAdd A (constant (F := Ideal) S_ .f32 0x00000000#32) reducesTo_S2x16x128_S16_d0_2 h_S_) slices_S16_S15_0

/-- The program's result: the closing arithmetic applied to the three tables the region leaves, each summed over
    cores and lanes and cut to the fifteen bins. -/
theorem tail_eq (c : Dev nD) :
    (Pipeline.afterTail₀ cfgs (Gen.dats m) 0 (Gen.V0 m) [hostOps1, hostOps1_1, hostOps1_2] c main_v21 : S0.Idx → EReal)
      = Cert.Ece.tail (F := Ideal) bcast_S_S15 reducesTo_S15_S_d0 h_S_
          (sl ((Gen.dats m 0 c).arrAt 2 cfg0.N)) (sl ((Gen.dats m 0 c).arrAt 3 cfg0.N)) (sl ((Gen.dats m 0 c).arrAt 4 cfg0.N)) := by
  unfold Pipeline.afterTail₀
  simp only [hostOps1, hostOps1_1, hostOps1_2, List.flatten_cons, List.flatten_nil, List.append_nil, List.cons_append,
    List.nil_append]
  show StableHlo.after _ _ (Proc.devRef .tc main_v21) = _
  after_results_simp
  have e2 : Pipeline.withArrays (cfgs 0).spec c (V0 m c) (fun w => (dats m 0 c).arrAt w (cfgs 0).N) (Proc.devRef .tc main_v2_0)
      = (dats m 0 c).arrAt 2 (cfgs 0).N := Pipeline.withArrays_arr (cfgs 0).spec launch0.win.arr_inj c _ _ 2
  have e3 : Pipeline.withArrays (cfgs 0).spec c (V0 m c) (fun w => (dats m 0 c).arrAt w (cfgs 0).N) (Proc.devRef .tc main_v2_1)
      = (dats m 0 c).arrAt 3 (cfgs 0).N := Pipeline.withArrays_arr (cfgs 0).spec launch0.win.arr_inj c _ _ 3
  have e4 : Pipeline.withArrays (cfgs 0).spec c (V0 m c) (fun w => (dats m 0 c).arrAt w (cfgs 0).N) (Proc.devRef .tc main_v2_2)
      = (dats m 0 c).arrAt 4 (cfgs 0).N := Pipeline.withArrays_arr (cfgs 0).spec launch0.win.arr_inj c _ _ 4
  rw [e2, e3, e4]
  rfl

/-- A table of lane sums of the reshaped samples, summed and cut, is the per-bin sum over all samples. -/
theorem sl_laneSums (val lg : SN.Idx → EReal) :
    sl (laneSums (shapeCast S3 val shapeCasts_S33554432_S2x131072x128) (shapeCast S3 lg shapeCasts_S33554432_S2x131072x128))
      = binSum val lg :=
  LaneSums.slice_reduce_laneSums val lg shapeCasts_S33554432_S2x131072x128 reducesTo_S2x16x128_S16_d0_2 h_S_ slices_S16_S15_0

/-- So when the region leaves three tables of lane sums (of the values `vp`, `vt`, `vc` under the logits `lg`), the
    program's result is the closing arithmetic of the three per-bin sums over all samples. -/
theorem tail_eq_of_laneSums (c : Dev nD) (vp vt vc lg : SN.Idx → EReal)
    (h2 : ((Gen.dats m 0 c).arrAt 2 cfg0.N : SOut.Idx → EReal)
      = laneSums (shapeCast S3 vp shapeCasts_S33554432_S2x131072x128) (shapeCast S3 lg shapeCasts_S33554432_S2x131072x128))
    (h3 : ((Gen.dats m 0 c).arrAt 3 cfg0.N : SOut.Idx → EReal)
      = laneSums (shapeCast S3 vt shapeCasts_S33554432_S2x131072x128) (shapeCast S3 lg shapeCasts_S33554432_S2x131072x128))
    (h4 : ((Gen.dats m 0 c).arrAt 4 cfg0.N : SOut.Idx → EReal)
      = laneSums (shapeCast S3 vc shapeCasts_S33554432_S2x131072x128) (shapeCast S3 lg shapeCasts_S33554432_S2x131072x128)) :
    (Pipeline.afterTail₀ cfgs (Gen.dats m) 0 (Gen.V0 m) [hostOps1, hostOps1_1, hostOps1_2] c main_v21 : S0.Idx → EReal)
      = Cert.Ece.tail (F := Ideal) bcast_S_S15 reducesTo_S15_S_d0 h_S_ (binSum vp lg) (binSum vt lg) (binSum vc lg) := by
  rw [tail_eq, h2, h3, h4, sl_laneSums, sl_laneSums, sl_laneSums]

end Cert.Ece.HostSide

end
-- ==== Proof.KernelRun.lean ====
/-
  The idealized kernel's run, read: its result is the closing arithmetic of the three per-bin sums over all samples.

  The region leaves three tables of lane sums over the `[2, 131072, 128]` arrangement of the flat samples (the
  arrangement is a re-indexing, so a function of the arranged samples is the arrangement of the function of the
  flat ones); the host operations after the region sum each table over cores and lanes and cut it to the fifteen
  bins, which gives the per-bin sums over all samples.
-/
import proofs.«160154_j2207613190488_2_alg».proof.Proof.Final
import proofs.«160154_j2207613190488_2_alg».proof.Proof.HostSide

noncomputable section

open Idealize.ShloMosaic Idealize.ShloMosaic.TcCoe Idealize.ShloMosaic.ValueIdx
open Idealize.SL Idealize.SL.Sem
open Cert.KernelIdeal Cert.KernelIdeal.Gen
open Cert.Ece

namespace Cert.Ece.KernelRun

variable (m : (ℓ : Loc nD τ sig) → Buf (Elt Ideal) ℓ) (ρ : Dev nD → PrngReg)

/-- The flat logits and labels at launch. -/
abbrev lg (c : Dev nD) : SN.Idx → EReal := m ((c.tc : Thread nD τ).loc main_arg0)
abbrev tg (c : Dev nD) : SN.Idx → BitVec 32 := m ((c.tc : Thread nD τ).loc main_arg1)

/-- The result, as a function of the flat samples. -/
abbrev result (c : Dev nD) : S0.Idx → EReal :=
  Cert.Ece.tail (F := Ideal) bcast_S_S15 reducesTo_S15_S_d0 h_S_
    (binSum (fun k => prob (lg m c k)) (lg m c)) (binSum (fun k => label (tg m c k)) (lg m c)) (binSum (fun _ => 1) (lg m c))

/-- What the host operations after the region compute from the three tables the region leaves. -/
theorem result_eq (c : Dev nD) :
    (Pipeline.afterTail₀ cfgs (Gen.dats m) 0 (Gen.V0 m) [hostOps1, hostOps1_1, hostOps1_2] c main_v21 : S0.Idx → EReal) = result m c := by
  refine HostSide.tail_eq_of_laneSums m c (fun k => prob (lg m c k)) (fun k => label (tg m c k)) (fun _ => 1) (lg m c) ?_ ?_ ?_
  · rw [Final.final2 m c]
    show laneSums (fun p => prob (Final.X3 m c p)) (Final.X3 m c) = _
    unfold Final.X3
    rw [HostSide.V_main_v0 m c]
    rfl
  · rw [Final.final3 m c]
    show laneSums (fun p => label (Final.T3 m c p)) (Final.X3 m c) = _
    unfold Final.X3 Final.T3
    rw [HostSide.V_main_v0 m c, HostSide.V_main_v1 m c]
    rfl
  · rw [Final.final4 m c]
    show laneSums (fun _ => (1 : EReal)) (Final.X3 m c) = _
    unfold Final.X3
    rw [HostSide.V_main_v0 m c]
    rfl

/-- Every weakly fair execution of the idealized kernel's program terminates with its result at `result` and its
    arguments unchanged. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (Pipeline.mem_restRefs_of main_v21 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Ece.KernelRun

end
-- ==== Proof.lean ====
/-
  The proof of `Cert.Claim`: the two kernels' frames, the reference's frame, the (empty) idealization ledger, and the
  equivalence of the idealized kernel and the idealized reference over the extended reals.

  Both idealized programs compute the expected calibration error of 2^25 samples in fifteen bins.  Each is the same closing
  arithmetic (`Cert.Ece.tail`) of three per-bin sums over all samples: of the confidences, of the labels, of ones
  (`Cert.Ece.binSum`).  The reference forms each sum by an accumulating scatter at the samples' bins.  The kernel forms it
  as, per core, bin and lane, a running sum over 32 blocks of 4096 rows of the 0/1-weighted terms, then sums over cores and
  lanes.  On the extended reals a 0/1-weighted term is the term on the bin's samples and zero elsewhere, and finite sums may be
  regrouped freely, so the two are one function of the samples; no finiteness of the inputs is needed.
-/
import proofs.«160154_j2207613190488_2_alg».proof.Defs
import proofs.«160154_j2207613190488_2_alg».proof.Proof.Gen.Kernel
import proofs.«160154_j2207613190488_2_alg».proof.Proof.Gen.Kernel.Skeleton
import proofs.«160154_j2207613190488_2_alg».proof.Proof.Gen.Kernel.Launch
import proofs.«160154_j2207613190488_2_alg».proof.Proof.Gen.Kernel.Points
import proofs.«160154_j2207613190488_2_alg».proof.Proof.Gen.Kernel.Frame
import proofs.«160154_j2207613190488_2_alg».proof.Proof.Gen.KernelIdeal
import proofs.«160154_j2207613190488_2_alg».proof.Proof.Gen.KernelIdeal.Skeleton
import proofs.«160154_j2207613190488_2_alg».proof.Proof.Gen.KernelIdeal.Launch
import proofs.«160154_j2207613190488_2_alg».proof.Proof.Gen.KernelIdeal.Points
import proofs.«160154_j2207613190488_2_alg».proof.Proof.Gen.KernelIdeal.Frame
import proofs.«160154_j2207613190488_2_alg».proof.Proof.Gen.ReferenceIdeal
import proofs.«160154_j2207613190488_2_alg».proof.Proof.Gen.Pre_finite_inputs
import proofs.«160154_j2207613190488_2_alg».proof.Proof.RefRunP
import proofs.«160154_j2207613190488_2_alg».proof.Proof.RefSide
import proofs.«160154_j2207613190488_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the samples both idealized programs end at the calibration error of the samples. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Ece.KernelRun.result m c, Cert.Ece.KernelRun.run m ρ, ?_⟩
  refine (θ_run Cert.ReferenceIdeal.defs _ _).mono (fun _ h c => ⟨(h c).1.trans ?_, (h c).2⟩)
    (Cert.ReferenceIdeal.ValueP.run (F := Ideal) m' ρ')
  refine (Cert.Ece.Ref.ref_result m' c).trans ?_
  show Cert.Ece.tail _ _ _ _ _ _ = Cert.Ece.tail _ _ _ _ _ _
  unfold Cert.Ece.Ref.lg Cert.Ece.Ref.tg Cert.Ece.KernelRun.lg Cert.Ece.KernelRun.tg
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
